-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1250000 : Shape := ⟨2, ![2, 1250000]⟩
abbrev S1250000 : Shape := ⟨1, ![1250000]⟩
abbrev S100000x64 : Shape := ⟨2, ![100000, 64]⟩
abbrev S_ : Shape := ⟨0, ![]⟩

class Facts : Prop where
  bcast_S_S1250000 : S_.BroadcastsInDim S1250000 (![] : Fin 0 → Fin S1250000.rank)
  reducesTo_S1250000_S_d0 : S1250000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : IVec S2x1250000 32) (main_arg1 : FVec F S1250000 .f32) (main_arg2 : FVec F S100000x64 .f32) (main_arg3 : FVec F S100000x64 .f32) : IVec S_ 1 :=
  let main_v0 : FVec F S1250000 .f32 := Host.absf main_arg1
  let main_cst : FVec F S_ .f32 := constant S_ .f32 0x7F800000#32
  let main_v1 : FVec F S1250000 .f32 := broadcastInDim S1250000 ![] bcast_S_S1250000 main_cst
  let main_v2 : IVec S1250000 1 := cmpf .olt main_v0 main_v1
  let main_c : IVec S_ 1 := constantI S_ 1 1#1
  let main_v3 : IVec S_ 1 := (fun x v => Host.reduce IntOp.andi x v reducesTo_S1250000_S_d0 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  main_v13
-- ==== Kernel.lean ====
abbrev S2x1250000 : Shape := ⟨2, ![2, 1250000]⟩
abbrev S1250000 : Shape := ⟨1, ![1250000]⟩
abbrev S100000x64 : Shape := ⟨2, ![100000, 64]⟩
abbrev S1x1250000 : Shape := ⟨2, ![1, 1250000]⟩
abbrev S200000x64 : Shape := ⟨2, ![200000, 64]⟩
abbrev S1250000x1 : Shape := ⟨2, ![1250000, 1]⟩
abbrev S_ : Shape := ⟨0, ![]⟩
abbrev S1250000x64 : Shape := ⟨2, ![1250000, 64]⟩
abbrev S5000x64 : Shape := ⟨2, ![5000, 64]⟩
abbrev S5000x1 : Shape := ⟨2, ![5000, 1]⟩

abbrev nBuf : Space → Nat
  | .hbm => 44
  | .vmem => 28
  | .smem => 0
  | _ => 0

abbrev bufTy : (tb : Table) → Fin (tcTables nBuf tb) → BufTy
  | .hbm, ⟨0, _⟩ => ⟨S2x1250000, .i32⟩
  | .hbm, ⟨1, _⟩ => ⟨S1250000, .f32⟩
  | .hbm, ⟨2, _⟩ => ⟨S100000x64, .f32⟩
  | .hbm, ⟨3, _⟩ => ⟨S100000x64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S200000x64, .f32⟩
  | .hbm, ⟨9, _⟩ => ⟨S1250000x1, .f32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S1250000x64, .f32⟩
  | .hbm, ⟨20, _⟩ => ⟨S_, .f32⟩
  | .hbm, ⟨21, _⟩ => ⟨S200000x64, .f32⟩
  | .hbm, ⟨22, _⟩ => ⟨S1250000x1, .i32⟩
  | .hbm, ⟨23, _⟩ => ⟨S200000x64, .f32⟩
  | .hbm, ⟨24, _⟩ => ⟨S200000x64, .f32⟩
  | .hbm, ⟨25, _⟩ => ⟨S200000x64, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000x64, .f32⟩
  | .hbm, ⟨35, _⟩ => ⟨S1250000x64, .f32⟩
  | .hbm, ⟨36, _⟩ => ⟨S_, .f32⟩
  | .hbm, ⟨37, _⟩ => ⟨S200000x64, .f32⟩
  | .hbm, ⟨38, _⟩ => ⟨S1250000x1, .i32⟩
  | .hbm, ⟨39, _⟩ => ⟨S200000x64, .f32⟩
  | .hbm, ⟨40, _⟩ => ⟨S200000x64, .f32⟩
  | .hbm, ⟨41, _⟩ => ⟨S200000x64, .f32⟩
  | .hbm, ⟨42, _⟩ => ⟨S100000x64, .f32⟩
  | .hbm, ⟨43, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | _, _ => ⟨S2x1250000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  concatenates_S100000x64_S100000x64_S200000x64_d0 : Shape.Concatenates [S100000x64, S100000x64] S200000x64 0
  shapeCasts_S1250000_S1250000x1 : S1250000.ShapeCasts S1250000x1
  bcast_S_S1250000 : S_.BroadcastsInDim S1250000 (![] : Fin 0 → Fin S1250000.rank)
  bcast_S1250000_S1250000x1_0 : S1250000.BroadcastsInDim S1250000x1 (![0] : Fin 1 → Fin S1250000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S200000x64 : S_.BroadcastsInDim S200000x64 (![] : Fin 0 → Fin S200000x64.rank)
  slices_S200000x64_S100000x64_0_0 : S200000x64.Slices ![0, 0] S100000x64
  slices_S200000x64_S100000x64_100000_0 : S200000x64.Slices ![100000, 0] S100000x64
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1250000x64.size a
  hwx0_0 : ∀ i : grid0.Coords, EltTy.bits .f32 = 32 ∨ (Rect.block (s := S1250000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1250000x1.size a
  hwx0_1 : ∀ i : grid0.Coords, EltTy.bits .f32 = 32 ∨ (Rect.block (s := S1250000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1250000x64.size a
  hwx0_2 : ∀ i : grid0.Coords, EltTy.bits .f32 = 32 ∨ (Rect.block (s := S1250000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S200000x64.size a
  hwx1_2 : ∀ i : grid1.Coords, EltTy.bits .f32 = 32 ∨ (Rect.block (s := S200000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S200000x64.size a
  hwx1_3 : ∀ i : grid1.Coords, EltTy.bits .f32 = 32 ∨ (Rect.block (s := S200000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S1250000x64.size a
  hwx2_0 : ∀ i : grid2.Coords, EltTy.bits .f32 = 32 ∨ (Rect.block (s := S1250000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S1250000x1.size a
  hwx2_1 : ∀ i : grid2.Coords, EltTy.bits .f32 = 32 ∨ (Rect.block (s := S1250000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S1250000x64.size a
  hwx2_2 : ∀ i : grid2.Coords, EltTy.bits .f32 = 32 ∨ (Rect.block (s := S1250000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S200000x64.size a
  hwx3_1 : ∀ i : grid3.Coords, EltTy.bits .f32 = 32 ∨ (Rect.block (s := S200000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S200000x64.size a
  hwx3_2 : ∀ i : grid3.Coords, EltTy.bits .f32 = 32 ∨ (Rect.block (s := S200000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S200000x64.size a
  hwx3_3 : ∀ i : grid3.Coords, EltTy.bits .f32 = 32 ∨ (Rect.block (s := S200000x64) S5000x64.size (cc3_transform_3 i) (hinb3_3 i)).WholeWords (EltTy.packing .f32)

variable [Facts₀]

def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_0) S5000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17_1) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29_0) S5000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29_1) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2x1250000 : Shape := ⟨2, ![2, 1250000]⟩
abbrev S1250000 : Shape := ⟨1, ![1250000]⟩
abbrev S100000x64 : Shape := ⟨2, ![100000, 64]⟩
abbrev S1x1250000 : Shape := ⟨2, ![1, 1250000]⟩
abbrev S200000x64 : Shape := ⟨2, ![200000, 64]⟩
abbrev S_ : Shape := ⟨0, ![]⟩
abbrev S1250000x1 : Shape := ⟨2, ![1250000, 1]⟩
abbrev S1250000x64 : Shape := ⟨2, ![1250000, 64]⟩

abbrev nBuf : Space → Nat
  | .hbm => 61
  | .vmem => 0
  | .smem => 0
  | _ => 0

abbrev bufTy : (tb : Table) → Fin (tcTables nBuf tb) → BufTy
  | .hbm, ⟨0, _⟩ => ⟨S2x1250000, .i32⟩
  | .hbm, ⟨1, _⟩ => ⟨S1250000, .f32⟩
  | .hbm, ⟨2, _⟩ => ⟨S100000x64, .f32⟩
  | .hbm, ⟨3, _⟩ => ⟨S100000x64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S200000x64, .f32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S1250000x1, .f32⟩
  | .hbm, ⟨19, _⟩ => ⟨S1250000x64, .f32⟩
  | .hbm, ⟨20, _⟩ => ⟨S1250000x64, .f32⟩
  | .hbm, ⟨21, _⟩ => ⟨S_, .f32⟩
  | .hbm, ⟨22, _⟩ => ⟨S200000x64, .f32⟩
  | .hbm, ⟨23, _⟩ => ⟨S1250000x1, .i32⟩
  | .hbm, ⟨24, _⟩ => ⟨S200000x64, .f32⟩
  | .hbm, ⟨25, _⟩ => ⟨S_, .f32⟩
  | .hbm, ⟨26, _⟩ => ⟨S_, .f32⟩
  | .hbm, ⟨27, _⟩ => ⟨S200000x64, .f32⟩
  | .hbm, ⟨28, _⟩ => ⟨S200000x64, .i1⟩
  | .hbm, ⟨29, _⟩ => ⟨S_, .f32⟩
  | .hbm, ⟨30, _⟩ => ⟨S200000x64, .f32⟩
  | .hbm, ⟨31, _⟩ => ⟨S200000x64, .f32⟩
  | .hbm, ⟨32, _⟩ => ⟨S200000x64, .f32⟩
  | .hbm, ⟨33, _⟩ => ⟨S200000x64, .f32⟩
  | .hbm, ⟨34, _⟩ => ⟨S_, .i32⟩
  | .hbm, ⟨35, _⟩ => ⟨S1250000, .i32⟩
  | .hbm, ⟨36, _⟩ => ⟨S1250000, .i1⟩
  | .hbm, ⟨37, _⟩ => ⟨S_, .i32⟩
  | .hbm, ⟨38, _⟩ => ⟨S1250000, .i32⟩
  | .hbm, ⟨39, _⟩ => ⟨S1250000, .i32⟩
  | .hbm, ⟨40, _⟩ => ⟨S1250000, .i32⟩
  | .hbm, ⟨41, _⟩ => ⟨S1250000x1, .i32⟩
  | .hbm, ⟨42, _⟩ => ⟨S1250000x64, .f32⟩
  | .hbm, ⟨43, _⟩ => ⟨S1250000x1, .f32⟩
  | .hbm, ⟨44, _⟩ => ⟨S1250000x64, .f32⟩
  | .hbm, ⟨45, _⟩ => ⟨S1250000x64, .f32⟩
  | .hbm, ⟨46, _⟩ => ⟨S_, .f32⟩
  | .hbm, ⟨47, _⟩ => ⟨S200000x64, .f32⟩
  | .hbm, ⟨48, _⟩ => ⟨S1250000x1, .i32⟩
  | .hbm, ⟨49, _⟩ => ⟨S200000x64, .f32⟩
  | .hbm, ⟨50, _⟩ => ⟨S_, .f32⟩
  | .hbm, ⟨51, _⟩ => ⟨S_, .f32⟩
  | .hbm, ⟨52, _⟩ => ⟨S200000x64, .f32⟩
  | .hbm, ⟨53, _⟩ => ⟨S200000x64, .i1⟩
  | .hbm, ⟨54, _⟩ => ⟨S_, .f32⟩
  | .hbm, ⟨55, _⟩ => ⟨S200000x64, .f32⟩
  | .hbm, ⟨56, _⟩ => ⟨S200000x64, .f32⟩
  | .hbm, ⟨57, _⟩ => ⟨S200000x64, .f32⟩
  | .hbm, ⟨58, _⟩ => ⟨S200000x64, .f32⟩
  | .hbm, ⟨59, _⟩ => ⟨S100000x64, .f32⟩
  | .hbm, ⟨60, _⟩ => ⟨S100000x64, .f32⟩
  | _, _ => ⟨S2x1250000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  concatenates_S100000x64_S100000x64_S200000x64_d0 : Shape.Concatenates [S100000x64, S100000x64] S200000x64 0
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S200000x64 : S_.BroadcastsInDim S200000x64 (![] : Fin 0 → Fin S200000x64.rank)
  slices_S200000x64_S100000x64_0_0 : S200000x64.Slices ![0, 0] S100000x64
  slices_S200000x64_S100000x64_100000_0 : S200000x64.Slices ![100000, 0] S100000x64
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1

variable [Facts₀]

def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf

class Facts : Prop extends Facts₀ where

variable [Facts]
-- ==== Proof.KRun.lean ====
/-
  The idealized kernel's run with its two results named.

  @main is nine segments: five stretches of host operations and, between them, four pipelined regions (edge scaling,
  node update, edge scaling, node update). The contents of every buffer at each segment boundary are a fold from the
  launch memory: a host stretch applies its operations, a region replaces each of its output arrays by what its grid
  points write back and leaves every other buffer alone. `W9` is the last boundary's contents. Every weakly fair
  execution terminates without a fault in a state whose unscoped buffers are exactly `W9`; read at the two result
  buffers and at the four arguments this is the statement below. What `W9` holds at the results, as a function of
  the arguments, is computed in the modules that follow.
-/
import proofs.«100824_j87290915324105_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result buffer at the last boundary's
    contents and the four arguments as launched. -/
theorem run_results : θ_run defs (onTc (τ := τ) (main (F := F))) ⟨m, fun _ => 0, ρ⟩ (fun r => ∀ c : Dev nD,
      r.2.mem ((c.tc : Thread nD τ).loc main_v30) = W9 m ρ c (Proc.devRef .tc main_v30)
      ∧ r.2.mem ((c.tc : Thread nD τ).loc main_v31) = W9 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v30 (by decide)),
       h c _ (mem_uc main_v31 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.KernelIdeal.KRun

end
-- ==== Proof.KSpec.lean ====
/-
  The four regions' results as whole-array functions.

  An edge-scaling region multiplies row e of the gathered [E, 64] table by the e-th weight, held as an [E, 1] column:
  out (e, d) = gathered (e, d) · w (e, 0). A node-update region applies the leaky rectifier with slope 1/2 to every
  entry of the aggregated [N, 64] table — x where x ≥ 0, x / 2 otherwise — and adds the result to the running sum.
  Both are stated entry by entry for any float instance; nothing here mentions a grid or a block.
-/
import Idealize.ShloMosaic.Lib.ValueIdx
import Idealize.ShloMosaic.PureOps

noncomputable section

namespace Cert.KVal

open Idealize.ShloMosaic Idealize.ShloMosaic.ValueIdx

variable {F : FTy → Type} [FloatOps F]

/-- The head of row `e` in an `[n, 1]` column, for an index `(e, d)` of an `[n, k]` table. -/
abbrev rowHead {n k : ℕ} (i : (⟨2, ![n, k]⟩ : Shape).Idx) : (⟨2, ![n, 1]⟩ : Shape).Idx := ix2 (i 0) (0 : Fin 1)

/-- Each row of the table times that row's weight. -/
def scaled {n k : ℕ} (g : (⟨2, ![n, k]⟩ : Shape).Idx → F .f32) (w : (⟨2, ![n, 1]⟩ : Shape).Idx → F .f32) :
    (⟨2, ![n, k]⟩ : Shape).Idx → F .f32 :=
  fun i => FloatOps.mulf (g i) (w (rowHead i))

/-- The leaky rectifier with slope 1/2 on one number: `x` where `x ≥ 0`, `x / 2` otherwise. -/
def leakyS (x : F .f32) : F .f32 :=
  Scalar.select (FloatOps.cmpf .oge x (Scalar.ofBits .f32 0x00000000#32)) x (FloatOps.mulf (Scalar.ofBits .f32 0x3F000000#32) x)

/-- The rectifier on every entry. -/
def leaky {s : Shape} (x : s.Idx → F .f32) : s.Idx → F .f32 := fun i => leakyS (x i)

/-- The running sum plus the rectified aggregate, entry by entry. -/
def accum {s : Shape} (x acc : s.Idx → F .f32) : s.Idx → F .f32 := fun i => FloatOps.addf (acc i) (leakyS (x i))

end Cert.KVal

end
-- ==== Proof.KOut.lean ====
/-
  The idealized kernel's two results as staged functions of the four argument arrays.

  Nodes: the 100000 user rows followed by the 100000 item rows, an [N, 64] table with N = 200000. Every edge e has a
  target `row e` and a source `col e` (the two rows of the index argument, a negative source index counted from the
  end) and a weight. One layer sends, along every edge, the source's current row times the edge's weight (`msg`), sums
  the messages arriving at each node (`agg`: a scatter-add into zeros), and rectifies. Two layers are run; the result is
  the node table plus the two layers' outputs, split back into its user half and its item half.
-/
import proofs.«100824_j87290915324105_1_alg».proof.KernelIdeal
import proofs.«100824_j87290915324105_1_alg».proof.Proof.Gen.KernelIdeal
import proofs.«100824_j87290915324105_1_alg».proof.Proof.KSpec

noncomputable section

namespace Cert.KernelIdeal.KOut

open Cert.KernelIdeal Cert.KernelIdeal.Gen Cert.KVal Idealize.ShloMosaic Idealize.SL.Sem

variable {F : FTy → Type} [FloatOps F]

/-- The node table: the users' rows, then the items'. -/
def nodes (a2 a3 : (⟨S100000x64, .f32⟩ : BufTy).Contents (Elt F)) : (⟨S200000x64, .f32⟩ : BufTy).Contents (Elt F) :=
  concatenate S200000x64 0 [⟨S100000x64, a2⟩, ⟨S100000x64, a3⟩] concatenates_S100000x64_S100000x64_S200000x64_d0

/-- Every edge's target node: row 0 of the index argument. -/
def rowIds (a0 : (⟨S2x1250000, .i32⟩ : BufTy).Contents (Elt F)) : (⟨S1250000, .i32⟩ : BufTy).Contents (Elt F) :=
  shapeCast S1250000 (extractStridedSlice S1x1250000 ![0, 0] a0 slices_S2x1250000_S1x1250000_0_0) shapeCasts_S1x1250000_S1250000

/-- Every edge's source node as given: row 1 of the index argument. -/
def colIds (a0 : (⟨S2x1250000, .i32⟩ : BufTy).Contents (Elt F)) : (⟨S1250000, .i32⟩ : BufTy).Contents (Elt F) :=
  shapeCast S1250000 (extractStridedSlice S1x1250000 ![1, 0] a0 slices_S2x1250000_S1x1250000_1_0) shapeCasts_S1x1250000_S1250000

/-- Rows of a node table gathered along edges whose sources are given as a plain index vector (a negative index
    counted from the end of the table). -/
def gatherFrom (cur : (⟨S200000x64, .f32⟩ : BufTy).Contents (Elt F)) (cids : (⟨S1250000, .i32⟩ : BufTy).Contents (Elt F)) : (⟨S1250000x64, .f32⟩ : BufTy).Contents (Elt F) :=
  Host.gather gather_S200000x64_S1250000x1_S1250000x64_1_0_n_n_0_1_164 cur
    (broadcastInDim S1250000x1 ![0] bcast_S1250000_S1250000x1_0
      (select (cmpi .slt cids (broadcastInDim S1250000 ![] bcast_S_S1250000 (constantI S_ 32 0#32)))
        (addi cids (broadcastInDim S1250000 ![] bcast_S_S1250000 (constantI S_ 32 200000#32))) cids))

/-- Per-edge rows summed at targets given as a plain index vector: a scatter-add into zeros. -/
def aggFrom (rids : (⟨S1250000, .i32⟩ : BufTy).Contents (Elt F)) (u : (⟨S1250000x64, .f32⟩ : BufTy).Contents (Elt F)) : (⟨S200000x64, .f32⟩ : BufTy).Contents (Elt F) :=
  Host.scatterAdd scatter_S200000x64_S1250000x1_S1250000x64_1_0_0_1
    (broadcastInDim S200000x64 ![] bcast_S_S200000x64 (constant S_ .f32 0x00000000#32))
    (broadcastInDim S1250000x1 ![0] bcast_S1250000_S1250000x1_0 rids) u

/-- The edge weights as an [E, 1] column. -/
def wcol (a1 : (⟨S1250000, .f32⟩ : BufTy).Contents (Elt F)) : (⟨S1250000x1, .f32⟩ : BufTy).Contents (Elt F) :=
  shapeCast S1250000x1 a1 shapeCasts_S1250000_S1250000x1

/-- The rows gathered along the edges. -/
def gathered (cur : (⟨S200000x64, .f32⟩ : BufTy).Contents (Elt F)) (a0 : (⟨S2x1250000, .i32⟩ : BufTy).Contents (Elt F)) : (⟨S1250000x64, .f32⟩ : BufTy).Contents (Elt F) :=
  gatherFrom cur (colIds a0)

/-- The messages: each gathered row times its edge's weight. -/
def msg (cur : (⟨S200000x64, .f32⟩ : BufTy).Contents (Elt F)) (a0 : (⟨S2x1250000, .i32⟩ : BufTy).Contents (Elt F))
    (a1 : (⟨S1250000, .f32⟩ : BufTy).Contents (Elt F)) : (⟨S1250000x64, .f32⟩ : BufTy).Contents (Elt F) :=
  scaled (gathered cur a0) (wcol a1)

/-- The messages summed at their target nodes. -/
def aggOf (u : (⟨S1250000x64, .f32⟩ : BufTy).Contents (Elt F)) (a0 : (⟨S2x1250000, .i32⟩ : BufTy).Contents (Elt F)) : (⟨S200000x64, .f32⟩ : BufTy).Contents (Elt F) :=
  aggFrom (rowIds a0) u

/-- One layer's aggregate from the current node table. -/
def agg (cur : (⟨S200000x64, .f32⟩ : BufTy).Contents (Elt F)) (a0 : (⟨S2x1250000, .i32⟩ : BufTy).Contents (Elt F))
    (a1 : (⟨S1250000, .f32⟩ : BufTy).Contents (Elt F)) : (⟨S200000x64, .f32⟩ : BufTy).Contents (Elt F) :=
  aggOf (msg cur a0 a1) a0

/-- The first layer's output. -/
def cur1 (a0 : (⟨S2x1250000, .i32⟩ : BufTy).Contents (Elt F)) (a1 : (⟨S1250000, .f32⟩ : BufTy).Contents (Elt F))
    (a2 a3 : (⟨S100000x64, .f32⟩ : BufTy).Contents (Elt F)) : (⟨S200000x64, .f32⟩ : BufTy).Contents (Elt F) :=
  leaky (agg (nodes a2 a3) a0 a1)

/-- The running sum after the first layer. -/
def acc1 (a0 : (⟨S2x1250000, .i32⟩ : BufTy).Contents (Elt F)) (a1 : (⟨S1250000, .f32⟩ : BufTy).Contents (Elt F))
    (a2 a3 : (⟨S100000x64, .f32⟩ : BufTy).Contents (Elt F)) : (⟨S200000x64, .f32⟩ : BufTy).Contents (Elt F) :=
  accum (agg (nodes a2 a3) a0 a1) (nodes a2 a3)

/-- The running sum after the second layer. -/
def acc2 (a0 : (⟨S2x1250000, .i32⟩ : BufTy).Contents (Elt F)) (a1 : (⟨S1250000, .f32⟩ : BufTy).Contents (Elt F))
    (a2 a3 : (⟨S100000x64, .f32⟩ : BufTy).Contents (Elt F)) : (⟨S200000x64, .f32⟩ : BufTy).Contents (Elt F) :=
  accum (agg (cur1 a0 a1 a2 a3) a0 a1) (acc1 a0 a1 a2 a3)

/-- The users' half of the result. -/
def out0 (a0 : (⟨S2x1250000, .i32⟩ : BufTy).Contents (Elt F)) (a1 : (⟨S1250000, .f32⟩ : BufTy).Contents (Elt F))
    (a2 a3 : (⟨S100000x64, .f32⟩ : BufTy).Contents (Elt F)) : (⟨S100000x64, .f32⟩ : BufTy).Contents (Elt F) :=
  extractStridedSlice S100000x64 ![0, 0] (acc2 a0 a1 a2 a3) slices_S200000x64_S100000x64_0_0

/-- The items' half of the result. -/
def out1 (a0 : (⟨S2x1250000, .i32⟩ : BufTy).Contents (Elt F)) (a1 : (⟨S1250000, .f32⟩ : BufTy).Contents (Elt F))
    (a2 a3 : (⟨S100000x64, .f32⟩ : BufTy).Contents (Elt F)) : (⟨S100000x64, .f32⟩ : BufTy).Contents (Elt F) :=
  extractStridedSlice S100000x64 ![100000, 0] (acc2 a0 a1 a2 a3) slices_S200000x64_S100000x64_100000_0

end Cert.KernelIdeal.KOut

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KScale0.lean ====
/-
  Region 0 (edge scaling, first layer): the whole output array.

  The region's grid has 250 points; point t reads rows 5000·t … 5000·t + 4999 of the gathered table and of the weight
  column and writes the same rows of the output. Inside a block the body multiplies entry (p, q) of the table block by
  entry (p, 0) of the column block. Hence what point t writes back is block t of `scaled table column`, the blocks
  cover every row, and the array the region leaves is that function of the two arrays it was entered with.
-/
import proofs.«100824_j87290915324105_1_alg».proof.Proof.Gen.KernelIdeal.Frame
import proofs.«100824_j87290915324105_1_alg».proof.Proof.KSpec
import proofs.«100824_j87290915324105_1_alg».proof.Proof.LibKeepdims
import Idealize.ShloMosaic.Lib.Pipeline.Value
import Idealize.ShloMosaic.Lib.ValueIdx

set_option maxRecDepth 16384

noncomputable section

namespace Cert.KernelIdeal.KScale0

open Cert.KernelIdeal Cert.KernelIdeal.Gen Cert.KVal Cert.LibKeepdims
open Idealize.ShloMosaic Idealize.ShloMosaic.TcCoe Idealize.ShloMosaic.ValueIdx Idealize.SL.Sem
open Idealize.ShloMosaic.Pipeline (Dat Cfg Window)

variable {F : FTy → Type} [FloatOps F]

theorem hz : (![0, 0] : Fin 2 → Nat) = fun _ => 0 := funext fun a => by fin_cases a <;> rfl

/-- The body's product at entry `(p, q)` of a block: the table's entry times the head of the column's row `p`. -/
theorem pay_apply (x0 : Vec F S5000x64 .f32) (x1 : Vec F S5000x1 .f32) (p : Fin 5000) (q : Fin 64) :
    k0_pay1 x0 x1 (ix2 p q) = FloatOps.mulf (x0 (ix2 p q)) (x1 (ix2 p (0 : Fin 1))) := by
  unfold k0_pay1
  show FloatOps.mulf (shapeCast S5000x64 x0 shapeCasts_S5000x64_S5000x64 (ix2 p q))
      (broadcastTo S5000x64 (shapeCast S5000x1 x1 shapeCasts_S5000x1_S5000x1) broadcasts_S5000x1_S5000x64 (ix2 p q)) = _
  rw [shapeCast_self, shapeCast_self]
  exact congrArg _ (broadcastTo_a1_ab_apply x1 broadcasts_S5000x1_S5000x64 p q)

/-- The three windows move together: at point `t` each is at block row `t`, block column 0. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt F) ((c : Thread nD τ).loc b))

/-- What point `t` writes back is block `t` of the scaled table. -/
theorem flushed_eq (c : Dev nD) (t : Fin cfg0.N) :
    (dat0 V c).flushed 2 t = ((cfg0.win 2).blk t).view.read (Elt F)
      (scaled (V c main_v12 : S1250000x64.Idx → F .f32) (V c main_v5 : S1250000x1.Idx → F .f32)) := by
  show (cfg0.win 2).cut (grid0.coords t) ((dat0 V c).after 2 t) = _
  rw [after0_2]
  unfold out0_2
  rw [View.canon_unit_zero hz]
  simp only [View.ld_unit_zero (S := S5000x64) hz, View.ld_unit_zero (S := S5000x1) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk0 V c 0 t) (iblk0 V c 1 t) p q).trans ?_
  have h0 : ((cfg0.win 0).blk t).view.emb (ix2 p q) = ((cfg0.win 2).blk t).view.emb (ix2 p q) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * q.val = win0_2.index t (1 : Fin 2) * 64 + 1 * q.val; omega
  have h1 : ((cfg0.win 1).blk t).view.emb (ix2 p (0 : Fin 1)) = rowHead (((cfg0.win 2).blk t).view.emb (ix2 p q)) := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  show FloatOps.mulf (V c main_v12 (((cfg0.win 0).blk t).view.emb (ix2 p q))) (V c main_v5 (((cfg0.win 1).blk t).view.emb (ix2 p (0 : Fin 1))))
     = FloatOps.mulf (V c main_v12 (((cfg0.win 2).blk t).view.emb (ix2 p q))) (V c main_v5 (rowHead (((cfg0.win 2).blk t).view.emb (ix2 p q))))
  rw [h0, h1]

/-- An index of the output array is in point `t`'s block iff each coordinate is in the block's range on its axis. -/
theorem mem_blk (t : Fin cfg0.N) (i : S1250000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v13).slice (win0_2.rect t)).set ↔ _
  rw [View.set_slice_whole, Rect.mem_set_unit]
  exact Iff.rfl

/-- Row `r` of the output is written by point `r / 5000`: the blocks cover the array. -/
theorem cover (i : S1250000x64.Idx) : ∃ t : Fin cfg0.N, (cfg0.win 2).flush t = true ∧ i ∈ ((cfg0.win 2).blk t).view.set := by
  have hi0 : (i 0).val < 1250000 := (i 0).isLt
  have hi1 : (i 1).val < 64 := (i 1).isLt
  have hN : grid0.N = 250 := N_0
  have hlt : (i 0).val / 5000 < grid0.N := by rw [hN]; omega
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 64 ≤ (i 1).val ∧ (i 1).val < win0_2.index ⟨(i 0).val / 5000, hlt⟩ (1 : Fin 2) * 64 + 64
    rw [e5]
    omega

/-- The array the region leaves: every row of the table it was entered with, times that row's weight. -/
theorem final (c : Dev nD) : (dat0 V c).arrAt 2 cfg0.N
    = scaled (V c main_v12 : S1250000x64.Idx → F .f32) (V c main_v5 : S1250000x1.Idx → F .f32) :=
  (dat0 V c).arrAt_eq_of_cover 2 _ (fun t _ => flushed_eq V c t) cover

end Cert.KernelIdeal.KScale0

end
-- ==== Proof.KScale2.lean ====
/-
  Region 2 (edge scaling, second layer): the whole output array.

  The region's grid has 250 points; point t reads rows 5000·t … 5000·t + 4999 of the gathered table and of the weight
  column and writes the same rows of the output. Inside a block the body multiplies entry (p, q) of the table block by
  entry (p, 0) of the column block. Hence what point t writes back is block t of `scaled table column`, the blocks
  cover every row, and the array the region leaves is that function of the two arrays it was entered with.
-/
import proofs.«100824_j87290915324105_1_alg».proof.Proof.Gen.KernelIdeal.Frame
import proofs.«100824_j87290915324105_1_alg».proof.Proof.KSpec
import proofs.«100824_j87290915324105_1_alg».proof.Proof.LibKeepdims
import Idealize.ShloMosaic.Lib.Pipeline.Value
import Idealize.ShloMosaic.Lib.ValueIdx

set_option maxRecDepth 16384

noncomputable section

namespace Cert.KernelIdeal.KScale2

open Cert.KernelIdeal Cert.KernelIdeal.Gen Cert.KVal Cert.LibKeepdims
open Idealize.ShloMosaic Idealize.ShloMosaic.TcCoe Idealize.ShloMosaic.ValueIdx Idealize.SL.Sem
open Idealize.ShloMosaic.Pipeline (Dat Cfg Window)

variable {F : FTy → Type} [FloatOps F]

theorem hz : (![0, 0] : Fin 2 → Nat) = fun _ => 0 := funext fun a => by fin_cases a <;> rfl

/-- The body's product at entry `(p, q)` of a block: the table's entry times the head of the column's row `p`. -/
theorem pay_apply (x0 : Vec F S5000x64 .f32) (x1 : Vec F S5000x1 .f32) (p : Fin 5000) (q : Fin 64) :
    k2_pay1 x0 x1 (ix2 p q) = FloatOps.mulf (x0 (ix2 p q)) (x1 (ix2 p (0 : Fin 1))) := by
  unfold k2_pay1
  show FloatOps.mulf (shapeCast S5000x64 x0 shapeCasts_S5000x64_S5000x64 (ix2 p q))
      (broadcastTo S5000x64 (shapeCast S5000x1 x1 shapeCasts_S5000x1_S5000x1) broadcasts_S5000x1_S5000x64 (ix2 p q)) = _
  rw [shapeCast_self, shapeCast_self]
  exact congrArg _ (broadcastTo_a1_ab_apply x1 broadcasts_S5000x1_S5000x64 p q)

/-- The three windows move together: at point `t` each is at block row `t`, block column 0. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = 0
    ∧ win2_2.index t (0 : Fin 2) = t.val
    ∧ win2_2.index t (1 : Fin 2) = 0 :=
  (by decide +kernel : ∀ t : Fin grid2.N, _)

variable (V : (c : Dev nD) → (b : Ref sig .tc) → Buf (Elt F) ((c : Thread nD τ).loc b))

/-- What point `t` writes back is block `t` of the scaled table. -/
theorem flushed_eq (c : Dev nD) (t : Fin cfg2.N) :
    (dat2 V c).flushed 2 t = ((cfg2.win 2).blk t).view.read (Elt F)
      (scaled (V c main_v24 : S1250000x64.Idx → F .f32) (V c main_v5 : S1250000x1.Idx → F .f32)) := by
  show (cfg2.win 2).cut (grid2.coords t) ((dat2 V c).after 2 t) = _
  rw [after2_2]
  unfold out2_2
  rw [View.canon_unit_zero hz]
  simp only [View.ld_unit_zero (S := S5000x64) hz, View.ld_unit_zero (S := S5000x1) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk2 V c 0 t) (iblk2 V c 1 t) p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * q.val = win2_2.index t (1 : Fin 2) * 64 + 1 * q.val; omega
  have h1 : ((cfg2.win 1).blk t).view.emb (ix2 p (0 : Fin 1)) = rowHead (((cfg2.win 2).blk t).view.emb (ix2 p q)) := by
    funext a; apply Fin.ext
    match a with
    | ⟨0, _⟩ => show win2_1.index t (0 : Fin 2) * 5000 + 1 * p.val = win2_2.index t (0 : Fin 2) * 5000 + 1 * p.val; omega
    | ⟨1, _⟩ => show win2_1.index t (1 : Fin 2) * 1 + 1 * 0 = 0; omega
  show FloatOps.mulf (V c main_v24 (((cfg2.win 0).blk t).view.emb (ix2 p q))) (V c main_v5 (((cfg2.win 1).blk t).view.emb (ix2 p (0 : Fin 1))))
     = FloatOps.mulf (V c main_v24 (((cfg2.win 2).blk t).view.emb (ix2 p q))) (V c main_v5 (rowHead (((cfg2.win 2).blk t).view.emb (ix2 p q))))
  rw [h0, h1]

/-- An index of the output array is in point `t`'s block iff each coordinate is in the block's range on its axis. -/
theorem mem_blk (t : Fin cfg2.N) (i : S1250000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v25).slice (win2_2.rect t)).set ↔ _
  rw [View.set_slice_whole, Rect.mem_set_unit]
  exact Iff.rfl

/-- Row `r` of the output is written by point `r / 5000`: the blocks cover the array. -/
theorem cover (i : S1250000x64.Idx) : ∃ t : Fin cfg2.N, (cfg2.win 2).flush t = true ∧ i ∈ ((cfg2.win 2).blk t).view.set := by
  have hi0 : (i 0).val < 1250000 := (i 0).isLt
  have hi1 : (i 1).val < 64 := (i 1).isLt
  have hN : grid2.N = 250 := N_2
  have hlt : (i 0).val / 5000 < grid2.N := by rw [hN]; omega
  obtain ⟨e0, e1, e2, e3, e4, e5⟩ := idx_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, hlt⟩ (1 : Fin 2) * 64 ≤ (i 1).val ∧ (i 1).val < win2_2.index ⟨(i 0).val / 5000, hlt⟩ (1 : Fin 2) * 64 + 64
    rw [e5]
    omega

/-- The array the region leaves: every row of the table it was entered with, times that row's weight. -/
theorem final (c : Dev nD) : (dat2 V c).arrAt 2 cfg2.N
    = scaled (V c main_v24 : S1250000x64.Idx → F .f32) (V c main_v5 : S1250000x1.Idx → F .f32) :=
  (dat2 V c).arrAt_eq_of_cover 2 _ (fun t _ => flushed_eq V c t) cover

end Cert.KernelIdeal.KScale2

end
-- ==== Proof.KNode1.lean ====
/-
  Region 1 (node update, first layer): the two whole output arrays.

  The region's grid has 40 points; point t reads rows 5000·t … 5000·t + 4999 of the aggregated table and of the running
  sum and writes the same rows of its two outputs: the rectified aggregate, and the running sum plus the rectified
  aggregate. Both are entrywise, so what point t writes back is block t of the whole-array function, the blocks cover
  every row, and the arrays the region leaves are `leaky aggregate` and `accum aggregate sum`.
-/
import proofs.«100824_j87290915324105_1_alg».proof.Proof.Gen.KernelIdeal.Frame
import proofs.«100824_j87290915324105_1_alg».proof.Proof.KSpec
import Idealize.ShloMosaic.Lib.Pipeline.Value
import Idealize.ShloMosaic.Lib.ValueIdx

set_option maxRecDepth 16384

noncomputable section

namespace Cert.KernelIdeal.KNode1

open Cert.KernelIdeal Cert.KernelIdeal.Gen Cert.KVal
open Idealize.ShloMosaic Idealize.ShloMosaic.TcCoe Idealize.ShloMosaic.ValueIdx Idealize.SL.Sem
open Idealize.ShloMosaic.Pipeline (Dat Cfg Window)

variable {F : FTy → Type} [FloatOps F]

theorem hz : (![0, 0] : Fin 2 → Nat) = fun _ => 0 := funext fun a => by fin_cases a <;> rfl

/-- The first stored value is the rectifier applied to every entry of the loaded block. -/
theorem pay1_eq (x0 : Vec F S5000x64 .f32) : k1_pay1 x0 = fun j => leakyS (x0 j) := by
  unfold k1_pay1
  show select (cmpf .oge (shapeCast S5000x64 x0 shapeCasts_S5000x64_S5000x64) (broadcast S5000x64 (Scalar.ofBits .f32 0x00000000#32)))
      (shapeCast S5000x64 x0 shapeCasts_S5000x64_S5000x64)
      (mulf (broadcast S5000x64 (Scalar.ofBits .f32 0x3F000000#32)) (shapeCast S5000x64 x0 shapeCasts_S5000x64_S5000x64)) = _
  rw [shapeCast_self]
  rfl

/-- The second stored value adds the rectified block to the running sum's block, entry by entry. -/
theorem pay2_eq (x0 x1 : Vec F S5000x64 .f32) : k1_pay2 x0 x1 = fun j => FloatOps.addf (x1 j) (leakyS (x0 j)) := by
  unfold k1_pay2
  show addf (shapeCast S5000x64 x1 shapeCasts_S5000x64_S5000x64) (k1_pay1 x0) = _
  rw [shapeCast_self, pay1_eq]
  rfl

/-- The four windows move together: at point `t` each is at block row `t`, block column 0. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_3.index t (0 : Fin 2) = win1_2.index t (0 : Fin 2)
    ∧ win1_3.index t (1 : Fin 2) = win1_2.index t (1 : Fin 2)
    ∧ win1_2.index t (0 : Fin 2) = t.val
    ∧ win1_2.index t (1 : Fin 2) = 0 :=
  (by decide +kernel : ∀ t : Fin grid1.N, _)

variable (V : (c : Dev nD) → (b : Ref sig .tc) → Buf (Elt F) ((c : Thread nD τ).loc b))

/-- An input block's entry sits in the array where the first output's block has it. -/
theorem emb0_eq (t : Fin cfg1.N) (j : S5000x64.Idx) :
    ((cfg1.win 0).blk t).view.emb j = ((cfg1.win 2).blk t).view.emb j := by
  obtain ⟨e0, e1, e2, e3, e4, e5, e6, e7⟩ := idx_facts t
  funext a; apply Fin.ext
  match a with
  | ⟨0, _⟩ => show win1_0.index t (0 : Fin 2) * 5000 + 1 * (j 0).val = win1_2.index t (0 : Fin 2) * 5000 + 1 * (j 0).val; omega
  | ⟨1, _⟩ => show win1_0.index t (1 : Fin 2) * 64 + 1 * (j 1).val = win1_2.index t (1 : Fin 2) * 64 + 1 * (j 1).val; omega
theorem emb1_eq (t : Fin cfg1.N) (j : S5000x64.Idx) :
    ((cfg1.win 1).blk t).view.emb j = ((cfg1.win 2).blk t).view.emb j := by
  obtain ⟨e0, e1, e2, e3, e4, e5, e6, e7⟩ := idx_facts t
  funext a; apply Fin.ext
  match a with
  | ⟨0, _⟩ => show win1_1.index t (0 : Fin 2) * 5000 + 1 * (j 0).val = win1_2.index t (0 : Fin 2) * 5000 + 1 * (j 0).val; omega
  | ⟨1, _⟩ => show win1_1.index t (1 : Fin 2) * 64 + 1 * (j 1).val = win1_2.index t (1 : Fin 2) * 64 + 1 * (j 1).val; omega
theorem emb3_eq (t : Fin cfg1.N) (j : S5000x64.Idx) :
    ((cfg1.win 3).blk t).view.emb j = ((cfg1.win 2).blk t).view.emb j := by
  obtain ⟨e0, e1, e2, e3, e4, e5, e6, e7⟩ := idx_facts t
  funext a; apply Fin.ext
  match a with
  | ⟨0, _⟩ => show win1_3.index t (0 : Fin 2) * 5000 + 1 * (j 0).val = win1_2.index t (0 : Fin 2) * 5000 + 1 * (j 0).val; omega
  | ⟨1, _⟩ => show win1_3.index t (1 : Fin 2) * 64 + 1 * (j 1).val = win1_2.index t (1 : Fin 2) * 64 + 1 * (j 1).val; omega

/-- What point `t` writes back to the first output is block `t` of the rectified aggregate. -/
theorem flushed2_eq (c : Dev nD) (t : Fin cfg1.N) :
    (dat1 V c).flushed 2 t = ((cfg1.win 2).blk t).view.read (Elt F) (leaky (V c main_v16 : S200000x64.Idx → F .f32)) := by
  show (cfg1.win 2).cut (grid1.coords t) ((dat1 V c).after 2 t) = _
  rw [after1_2]
  unfold out1_2
  rw [View.canon_unit_zero hz]
  simp only [View.ld_unit_zero (S := S5000x64) hz]
  rw [pay1_eq]
  funext j
  show leakyS (V c main_v16 (((cfg1.win 0).blk t).view.emb j)) = leakyS (V c main_v16 (((cfg1.win 2).blk t).view.emb j))
  rw [emb0_eq]

/-- What point `t` writes back to the second output is block `t` of the updated running sum. -/
theorem flushed3_eq (c : Dev nD) (t : Fin cfg1.N) :
    (dat1 V c).flushed 3 t = ((cfg1.win 3).blk t).view.read (Elt F)
      (accum (V c main_v16 : S200000x64.Idx → F .f32) (V c main_v4 : S200000x64.Idx → F .f32)) := by
  show (cfg1.win 3).cut (grid1.coords t) ((dat1 V c).after 3 t) = _
  rw [after1_3]
  unfold out1_3
  rw [View.canon_unit_zero hz]
  simp only [View.ld_unit_zero (S := S5000x64) hz]
  rw [pay2_eq]
  funext j
  show FloatOps.addf (V c main_v4 (((cfg1.win 1).blk t).view.emb j)) (leakyS (V c main_v16 (((cfg1.win 0).blk t).view.emb j)))
     = FloatOps.addf (V c main_v4 (((cfg1.win 3).blk t).view.emb j)) (leakyS (V c main_v16 (((cfg1.win 3).blk t).view.emb j)))
  rw [emb0_eq, emb1_eq, emb3_eq]

/-- An index of an output array is in point `t`'s block iff each coordinate is in the block's range on its axis. -/
theorem mem_blk2 (t : Fin cfg1.N) (i : S200000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v17_0).slice (win1_2.rect t)).set ↔ _
  rw [View.set_slice_whole, Rect.mem_set_unit]
  exact Iff.rfl
theorem mem_blk3 (t : Fin cfg1.N) (i : S200000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v17_1).slice (win1_3.rect t)).set ↔ _
  rw [View.set_slice_whole, Rect.mem_set_unit]
  exact Iff.rfl

/-- Row `r` of either output is written by point `r / 5000`: the blocks cover the arrays. -/
theorem cover2 (i : S200000x64.Idx) : ∃ t : Fin cfg1.N, (cfg1.win 2).flush t = true ∧ i ∈ ((cfg1.win 2).blk t).view.set := by
  have hi0 : (i 0).val < 200000 := (i 0).isLt
  have hi1 : (i 1).val < 64 := (i 1).isLt
  have hN : grid1.N = 40 := N_1
  have hlt : (i 0).val / 5000 < grid1.N := by rw [hN]; omega
  obtain ⟨e0, e1, e2, e3, e4, e5, e6, e7⟩ := idx_facts ⟨(i 0).val / 5000, hlt⟩
  refine ⟨⟨(i 0).val / 5000, hlt⟩, flush1_2 _, ?_⟩
  rw [mem_blk2]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win1_2.index ⟨(i 0).val / 5000, hlt⟩ (1 : Fin 2) * 64 ≤ (i 1).val ∧ (i 1).val < win1_2.index ⟨(i 0).val / 5000, hlt⟩ (1 : Fin 2) * 64 + 64
    rw [e7]
    omega
theorem cover3 (i : S200000x64.Idx) : ∃ t : Fin cfg1.N, (cfg1.win 3).flush t = true ∧ i ∈ ((cfg1.win 3).blk t).view.set := by
  have hi0 : (i 0).val < 200000 := (i 0).isLt
  have hi1 : (i 1).val < 64 := (i 1).isLt
  have hN : grid1.N = 40 := N_1
  have hlt : (i 0).val / 5000 < grid1.N := by rw [hN]; omega
  obtain ⟨e0, e1, e2, e3, e4, e5, e6, e7⟩ := idx_facts ⟨(i 0).val / 5000, hlt⟩
  refine ⟨⟨(i 0).val / 5000, hlt⟩, flush1_3 _, ?_⟩
  rw [mem_blk3]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e4, e6]
    show (i 0).val / 5000 * 5000 ≤ (i 0).val ∧ (i 0).val < (i 0).val / 5000 * 5000 + 5000
    omega
  | ⟨1, _⟩ =>
    show win1_3.index ⟨(i 0).val / 5000, hlt⟩ (1 : Fin 2) * 64 ≤ (i 1).val ∧ (i 1).val < win1_3.index ⟨(i 0).val / 5000, hlt⟩ (1 : Fin 2) * 64 + 64
    rw [e5, e7]
    omega

/-- The first array the region leaves: the rectified aggregate. -/
theorem final2 (c : Dev nD) : (dat1 V c).arrAt 2 cfg1.N = leaky (V c main_v16 : S200000x64.Idx → F .f32) :=
  (dat1 V c).arrAt_eq_of_cover 2 _ (fun t _ => flushed2_eq V c t) cover2

/-- The second array the region leaves: the running sum it was entered with plus the rectified aggregate. -/
theorem final3 (c : Dev nD) : (dat1 V c).arrAt 3 cfg1.N
    = accum (V c main_v16 : S200000x64.Idx → F .f32) (V c main_v4 : S200000x64.Idx → F .f32) :=
  (dat1 V c).arrAt_eq_of_cover 3 _ (fun t _ => flushed3_eq V c t) cover3

end Cert.KernelIdeal.KNode1

end
-- ==== Proof.KNode3.lean ====
/-
  Region 3 (node update, second layer): the two whole output arrays.

  The region's grid has 40 points; point t reads rows 5000·t … 5000·t + 4999 of the aggregated table and of the running
  sum and writes the same rows of its two outputs: the rectified aggregate, and the running sum plus the rectified
  aggregate. Both are entrywise, so what point t writes back is block t of the whole-array function, the blocks cover
  every row, and the arrays the region leaves are `leaky aggregate` and `accum aggregate sum`.
-/
import proofs.«100824_j87290915324105_1_alg».proof.Proof.Gen.KernelIdeal.Frame
import proofs.«100824_j87290915324105_1_alg».proof.Proof.KSpec
import Idealize.ShloMosaic.Lib.Pipeline.Value
import Idealize.ShloMosaic.Lib.ValueIdx

set_option maxRecDepth 16384

noncomputable section

namespace Cert.KernelIdeal.KNode3

open Cert.KernelIdeal Cert.KernelIdeal.Gen Cert.KVal
open Idealize.ShloMosaic Idealize.ShloMosaic.TcCoe Idealize.ShloMosaic.ValueIdx Idealize.SL.Sem
open Idealize.ShloMosaic.Pipeline (Dat Cfg Window)

variable {F : FTy → Type} [FloatOps F]

theorem hz : (![0, 0] : Fin 2 → Nat) = fun _ => 0 := funext fun a => by fin_cases a <;> rfl

/-- The first stored value is the rectifier applied to every entry of the loaded block. -/
theorem pay1_eq (x0 : Vec F S5000x64 .f32) : k3_pay1 x0 = fun j => leakyS (x0 j) := by
  unfold k3_pay1
  show select (cmpf .oge (shapeCast S5000x64 x0 shapeCasts_S5000x64_S5000x64) (broadcast S5000x64 (Scalar.ofBits .f32 0x00000000#32)))
      (shapeCast S5000x64 x0 shapeCasts_S5000x64_S5000x64)
      (mulf (broadcast S5000x64 (Scalar.ofBits .f32 0x3F000000#32)) (shapeCast S5000x64 x0 shapeCasts_S5000x64_S5000x64)) = _
  rw [shapeCast_self]
  rfl

/-- The second stored value adds the rectified block to the running sum's block, entry by entry. -/
theorem pay2_eq (x0 x1 : Vec F S5000x64 .f32) : k3_pay2 x0 x1 = fun j => FloatOps.addf (x1 j) (leakyS (x0 j)) := by
  unfold k3_pay2
  show addf (shapeCast S5000x64 x1 shapeCasts_S5000x64_S5000x64) (k3_pay1 x0) = _
  rw [shapeCast_self, pay1_eq]
  rfl

/-- The four windows move together: at point `t` each is at block row `t`, block column 0. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_3.index t (0 : Fin 2) = win3_2.index t (0 : Fin 2)
    ∧ win3_3.index t (1 : Fin 2) = win3_2.index t (1 : Fin 2)
    ∧ win3_2.index t (0 : Fin 2) = t.val
    ∧ win3_2.index t (1 : Fin 2) = 0 :=
  (by decide +kernel : ∀ t : Fin grid3.N, _)

variable (V : (c : Dev nD) → (b : Ref sig .tc) → Buf (Elt F) ((c : Thread nD τ).loc b))

/-- An input block's entry sits in the array where the first output's block has it. -/
theorem emb0_eq (t : Fin cfg3.N) (j : S5000x64.Idx) :
    ((cfg3.win 0).blk t).view.emb j = ((cfg3.win 2).blk t).view.emb j := by
  obtain ⟨e0, e1, e2, e3, e4, e5, e6, e7⟩ := idx_facts t
  funext a; apply Fin.ext
  match a with
  | ⟨0, _⟩ => show win3_0.index t (0 : Fin 2) * 5000 + 1 * (j 0).val = win3_2.index t (0 : Fin 2) * 5000 + 1 * (j 0).val; omega
  | ⟨1, _⟩ => show win3_0.index t (1 : Fin 2) * 64 + 1 * (j 1).val = win3_2.index t (1 : Fin 2) * 64 + 1 * (j 1).val; omega
theorem emb1_eq (t : Fin cfg3.N) (j : S5000x64.Idx) :
    ((cfg3.win 1).blk t).view.emb j = ((cfg3.win 2).blk t).view.emb j := by
  obtain ⟨e0, e1, e2, e3, e4, e5, e6, e7⟩ := idx_facts t
  funext a; apply Fin.ext
  match a with
  | ⟨0, _⟩ => show win3_1.index t (0 : Fin 2) * 5000 + 1 * (j 0).val = win3_2.index t (0 : Fin 2) * 5000 + 1 * (j 0).val; omega
  | ⟨1, _⟩ => show win3_1.index t (1 : Fin 2) * 64 + 1 * (j 1).val = win3_2.index t (1 : Fin 2) * 64 + 1 * (j 1).val; omega
theorem emb3_eq (t : Fin cfg3.N) (j : S5000x64.Idx) :
    ((cfg3.win 3).blk t).view.emb j = ((cfg3.win 2).blk t).view.emb j := by
  obtain ⟨e0, e1, e2, e3, e4, e5, e6, e7⟩ := idx_facts t
  funext a; apply Fin.ext
  match a with
  | ⟨0, _⟩ => show win3_3.index t (0 : Fin 2) * 5000 + 1 * (j 0).val = win3_2.index t (0 : Fin 2) * 5000 + 1 * (j 0).val; omega
  | ⟨1, _⟩ => show win3_3.index t (1 : Fin 2) * 64 + 1 * (j 1).val = win3_2.index t (1 : Fin 2) * 64 + 1 * (j 1).val; omega

/-- What point `t` writes back to the first output is block `t` of the rectified aggregate. -/
theorem flushed2_eq (c : Dev nD) (t : Fin cfg3.N) :
    (dat3 V c).flushed 2 t = ((cfg3.win 2).blk t).view.read (Elt F) (leaky (V c main_v28 : S200000x64.Idx → F .f32)) := by
  show (cfg3.win 2).cut (grid3.coords t) ((dat3 V c).after 2 t) = _
  rw [after3_2]
  unfold out3_2
  rw [View.canon_unit_zero hz]
  simp only [View.ld_unit_zero (S := S5000x64) hz]
  rw [pay1_eq]
  funext j
  show leakyS (V c main_v28 (((cfg3.win 0).blk t).view.emb j)) = leakyS (V c main_v28 (((cfg3.win 2).blk t).view.emb j))
  rw [emb0_eq]

/-- What point `t` writes back to the second output is block `t` of the updated running sum. -/
theorem flushed3_eq (c : Dev nD) (t : Fin cfg3.N) :
    (dat3 V c).flushed 3 t = ((cfg3.win 3).blk t).view.read (Elt F)
      (accum (V c main_v28 : S200000x64.Idx → F .f32) (V c main_v17_1 : S200000x64.Idx → F .f32)) := by
  show (cfg3.win 3).cut (grid3.coords t) ((dat3 V c).after 3 t) = _
  rw [after3_3]
  unfold out3_3
  rw [View.canon_unit_zero hz]
  simp only [View.ld_unit_zero (S := S5000x64) hz]
  rw [pay2_eq]
  funext j
  show FloatOps.addf (V c main_v17_1 (((cfg3.win 1).blk t).view.emb j)) (leakyS (V c main_v28 (((cfg3.win 0).blk t).view.emb j)))
     = FloatOps.addf (V c main_v17_1 (((cfg3.win 3).blk t).view.emb j)) (leakyS (V c main_v28 (((cfg3.win 3).blk t).view.emb j)))
  rw [emb0_eq, emb1_eq, emb3_eq]

/-- An index of an output array is in point `t`'s block iff each coordinate is in the block's range on its axis. -/
theorem mem_blk2 (t : Fin cfg3.N) (i : S200000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v29_0).slice (win3_2.rect t)).set ↔ _
  rw [View.set_slice_whole, Rect.mem_set_unit]
  exact Iff.rfl
theorem mem_blk3 (t : Fin cfg3.N) (i : S200000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v29_1).slice (win3_3.rect t)).set ↔ _
  rw [View.set_slice_whole, Rect.mem_set_unit]
  exact Iff.rfl

/-- Row `r` of either output is written by point `r / 5000`: the blocks cover the arrays. -/
theorem cover2 (i : S200000x64.Idx) : ∃ t : Fin cfg3.N, (cfg3.win 2).flush t = true ∧ i ∈ ((cfg3.win 2).blk t).view.set := by
  have hi0 : (i 0).val < 200000 := (i 0).isLt
  have hi1 : (i 1).val < 64 := (i 1).isLt
  have hN : grid3.N = 40 := N_3
  have hlt : (i 0).val / 5000 < grid3.N := by rw [hN]; omega
  obtain ⟨e0, e1, e2, e3, e4, e5, e6, e7⟩ := idx_facts ⟨(i 0).val / 5000, hlt⟩
  refine ⟨⟨(i 0).val / 5000, hlt⟩, flush3_2 _, ?_⟩
  rw [mem_blk2]
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win3_2.index ⟨(i 0).val / 5000, hlt⟩ (1 : Fin 2) * 64 ≤ (i 1).val ∧ (i 1).val < win3_2.index ⟨(i 0).val / 5000, hlt⟩ (1 : Fin 2) * 64 + 64
    rw [e7]
    omega
theorem cover3 (i : S200000x64.Idx) : ∃ t : Fin cfg3.N, (cfg3.win 3).flush t = true ∧ i ∈ ((cfg3.win 3).blk t).view.set := by
  have hi0 : (i 0).val < 200000 := (i 0).isLt
  have hi1 : (i 1).val < 64 := (i 1).isLt
  have hN : grid3.N = 40 := N_3
  have hlt : (i 0).val / 5000 < grid3.N := by rw [hN]; omega
  obtain ⟨e0, e1, e2, e3, e4, e5, e6, e7⟩ := idx_facts ⟨(i 0).val / 5000, hlt⟩
  refine ⟨⟨(i 0).val / 5000, hlt⟩, flush3_3 _, ?_⟩
  rw [mem_blk3]
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    rw [e4, e6]
    show (i 0).val / 5000 * 5000 ≤ (i 0).val ∧ (i 0).val < (i 0).val / 5000 * 5000 + 5000
    omega
  | ⟨1, _⟩ =>
    show win3_3.index ⟨(i 0).val / 5000, hlt⟩ (1 : Fin 2) * 64 ≤ (i 1).val ∧ (i 1).val < win3_3.index ⟨(i 0).val / 5000, hlt⟩ (1 : Fin 2) * 64 + 64
    rw [e5, e7]
    omega

/-- The first array the region leaves: the rectified aggregate. -/
theorem final2 (c : Dev nD) : (dat3 V c).arrAt 2 cfg3.N = leaky (V c main_v28 : S200000x64.Idx → F .f32) :=
  (dat3 V c).arrAt_eq_of_cover 2 _ (fun t _ => flushed2_eq V c t) cover2

/-- The second array the region leaves: the running sum it was entered with plus the rectified aggregate. -/
theorem final3 (c : Dev nD) : (dat3 V c).arrAt 3 cfg3.N
    = accum (V c main_v28 : S200000x64.Idx → F .f32) (V c main_v17_1 : S200000x64.Idx → F .f32) :=
  (dat3 V c).arrAt_eq_of_cover 3 _ (fun t _ => flushed3_eq V c t) cover3

end Cert.KernelIdeal.KNode3

end
-- ==== Proof.KChain.lean ====
/-
  The last boundary's contents at the two result buffers, as the staged function of the arguments.

  The contents of the buffers at the nine segment boundaries are followed in order. A host stretch applies its
  operations to what it finds; a region replaces its output arrays by the whole-array functions computed for it
  (edge scaling: `scaled`; node update: `leaky` and `accum`) and leaves every other buffer alone. The buffers that matter:
  the two index vectors and the weight column (made once, read in both layers), the node table, and per layer the
  gathered rows, the messages, the aggregate, the layer's output and the running sum.
-/
import proofs.«100824_j87290915324105_1_alg».proof.Proof.Gen.KernelIdeal.Frame
import proofs.«100824_j87290915324105_1_alg».proof.Proof.KOut
import proofs.«100824_j87290915324105_1_alg».proof.Proof.KScale0
import proofs.«100824_j87290915324105_1_alg».proof.Proof.KScale2
import proofs.«100824_j87290915324105_1_alg».proof.Proof.KNode1
import proofs.«100824_j87290915324105_1_alg».proof.Proof.KNode3
import Idealize.ShloMosaic.Lib.StableHlo.Run

set_option maxRecDepth 16384

noncomputable section

namespace Cert.KernelIdeal.KChain

open Cert.KernelIdeal Cert.KernelIdeal.Gen Cert.KVal Cert.KernelIdeal.KOut
open Idealize.ShloMosaic Idealize.ShloMosaic.TcCoe Idealize.SL.Sem Idealize.ShloMosaic.StableHlo
open Idealize.ShloMosaic.Pipeline (Dat Cfg Window)

variable {F : FTy → Type} [FloatOps F]

/-! ## What each host stretch leaves, over any entry contents -/

section Host
variable (Wv : Valuation τ sig (Elt F))

theorem h0_v1 : after hostOps0 Wv (Proc.devRef .tc main_v1) = rowIds (Wv (Proc.devRef .tc main_arg0)) := by after_results <;> rfl
theorem h0_v3 : after hostOps0 Wv (Proc.devRef .tc main_v3) = colIds (Wv (Proc.devRef .tc main_arg0)) := by after_results <;> rfl
theorem h0_v4 : after hostOps0 Wv (Proc.devRef .tc main_v4) = nodes (Wv (Proc.devRef .tc main_arg2)) (Wv (Proc.devRef .tc main_arg3)) := by after_results <;> rfl
theorem h0_v5 : after hostOps0 Wv (Proc.devRef .tc main_v5) = wcol (Wv (Proc.devRef .tc main_arg1)) := by after_results <;> rfl
theorem h0_v12 : after hostOps0 Wv (Proc.devRef .tc main_v12)
    = gathered (nodes (Wv (Proc.devRef .tc main_arg2)) (Wv (Proc.devRef .tc main_arg3))) (Wv (Proc.devRef .tc main_arg0)) := by after_results <;> rfl

theorem h1_v16 : after hostOps1 Wv (Proc.devRef .tc main_v16) = aggFrom (Wv (Proc.devRef .tc main_v1)) (Wv (Proc.devRef .tc main_v13)) := by after_results <;> rfl
theorem h1_v1 : after hostOps1 Wv (Proc.devRef .tc main_v1) = Wv (Proc.devRef .tc main_v1) := by after_results <;> rfl
theorem h1_v3 : after hostOps1 Wv (Proc.devRef .tc main_v3) = Wv (Proc.devRef .tc main_v3) := by after_results <;> rfl
theorem h1_v4 : after hostOps1 Wv (Proc.devRef .tc main_v4) = Wv (Proc.devRef .tc main_v4) := by after_results <;> rfl
theorem h1_v5 : after hostOps1 Wv (Proc.devRef .tc main_v5) = Wv (Proc.devRef .tc main_v5) := by after_results <;> rfl

theorem h2_v24 : after hostOps2 Wv (Proc.devRef .tc main_v24) = gatherFrom (Wv (Proc.devRef .tc main_v17_0)) (Wv (Proc.devRef .tc main_v3)) := by after_results <;> rfl
theorem h2_v1 : after hostOps2 Wv (Proc.devRef .tc main_v1) = Wv (Proc.devRef .tc main_v1) := by after_results <;> rfl
theorem h2_v5 : after hostOps2 Wv (Proc.devRef .tc main_v5) = Wv (Proc.devRef .tc main_v5) := by after_results <;> rfl
theorem h2_v17_1 : after hostOps2 Wv (Proc.devRef .tc main_v17_1) = Wv (Proc.devRef .tc main_v17_1) := by after_results <;> rfl

theorem h3_v28 : after hostOps3 Wv (Proc.devRef .tc main_v28) = aggFrom (Wv (Proc.devRef .tc main_v1)) (Wv (Proc.devRef .tc main_v25)) := by after_results <;> rfl
theorem h3_v17_1 : after hostOps3 Wv (Proc.devRef .tc main_v17_1) = Wv (Proc.devRef .tc main_v17_1) := by after_results <;> rfl

theorem h4_v30 : after hostOps4 Wv (Proc.devRef .tc main_v30)
    = extractStridedSlice S100000x64 ![0, 0] (Wv (Proc.devRef .tc main_v29_1)) slices_S200000x64_S100000x64_0_0 := by after_results <;> rfl
theorem h4_v31 : after hostOps4 Wv (Proc.devRef .tc main_v31)
    = extractStridedSlice S100000x64 ![100000, 0] (Wv (Proc.devRef .tc main_v29_1)) slices_S200000x64_S100000x64_100000_0 := by after_results <;> rfl

end Host

/-! ## The boundaries in order -/

variable (m : (ℓ : Loc nD τ sig) → Buf (Elt F) ℓ) (ρ : Dev nD → PrngReg) (c : Dev nD)

/-! ### Entry of region 0: the index vectors, the weight column, the node table and the first gathered rows -/

theorem W1_v1 : W1 m ρ c (Proc.devRef .tc main_v1) = rowIds (m ((c : Thread nD τ).loc main_arg0)) := h0_v1 (W0 m ρ c)
theorem W1_v3 : W1 m ρ c (Proc.devRef .tc main_v3) = colIds (m ((c : Thread nD τ).loc main_arg0)) := h0_v3 (W0 m ρ c)
theorem W1_v4 : W1 m ρ c (Proc.devRef .tc main_v4) = nodes (m ((c : Thread nD τ).loc main_arg2)) (m ((c : Thread nD τ).loc main_arg3)) := h0_v4 (W0 m ρ c)
theorem W1_v5 : W1 m ρ c (Proc.devRef .tc main_v5) = wcol (m ((c : Thread nD τ).loc main_arg1)) := h0_v5 (W0 m ρ c)
theorem W1_v12 : W1 m ρ c (Proc.devRef .tc main_v12) = gathered (nodes (m ((c : Thread nD τ).loc main_arg2)) (m ((c : Thread nD τ).loc main_arg3))) (m ((c : Thread nD τ).loc main_arg0)) := h0_v12 (W0 m ρ c)

/-! ### Exit of region 0: the first messages -/

theorem W2_v13 : W2 m ρ c (Proc.devRef .tc main_v13) = msg (nodes (m ((c : Thread nD τ).loc main_arg2)) (m ((c : Thread nD τ).loc main_arg3))) (m ((c : Thread nD τ).loc main_arg0)) (m ((c : Thread nD τ).loc main_arg1)) :=
  (W2_arr m ρ c 2).trans ((KScale0.final (V1 m ρ) c).trans
    (congr (congrArg (scaled (n := 1250000) (k := 64)) (W1_v12 m ρ c)) (W1_v5 m ρ c)))
theorem W2_v1 : W2 m ρ c (Proc.devRef .tc main_v1) = rowIds (m ((c : Thread nD τ).loc main_arg0)) := (W2_of_ne m ρ c main_v1 (by decide)).trans (W1_v1 m ρ c)
theorem W2_v3 : W2 m ρ c (Proc.devRef .tc main_v3) = colIds (m ((c : Thread nD τ).loc main_arg0)) := (W2_of_ne m ρ c main_v3 (by decide)).trans (W1_v3 m ρ c)
theorem W2_v4 : W2 m ρ c (Proc.devRef .tc main_v4) = nodes (m ((c : Thread nD τ).loc main_arg2)) (m ((c : Thread nD τ).loc main_arg3)) := (W2_of_ne m ρ c main_v4 (by decide)).trans (W1_v4 m ρ c)
/-- The weight column is one of the region's input arrays: an input array is never written back. -/
theorem W2_v5 : W2 m ρ c (Proc.devRef .tc main_v5) = wcol (m ((c : Thread nD τ).loc main_arg1)) :=
  (W2_arr m ρ c 1).trans (((dat0 (V1 m ρ) c).arrAt_in 1 rfl cfg0.N).trans ((A_eq0 (V1 m ρ) c 1).trans (W1_v5 m ρ c)))

/-! ### Entry of region 1: the first aggregate -/

theorem W3_v16 : W3 m ρ c (Proc.devRef .tc main_v16) = agg (nodes (m ((c : Thread nD τ).loc main_arg2)) (m ((c : Thread nD τ).loc main_arg3))) (m ((c : Thread nD τ).loc main_arg0)) (m ((c : Thread nD τ).loc main_arg1)) := by
  refine (h1_v16 (W2 m ρ c)).trans ?_
  rw [W2_v1 m ρ c, W2_v13 m ρ c]
  rfl
theorem W3_v1 : W3 m ρ c (Proc.devRef .tc main_v1) = rowIds (m ((c : Thread nD τ).loc main_arg0)) := (h1_v1 (W2 m ρ c)).trans (W2_v1 m ρ c)
theorem W3_v3 : W3 m ρ c (Proc.devRef .tc main_v3) = colIds (m ((c : Thread nD τ).loc main_arg0)) := (h1_v3 (W2 m ρ c)).trans (W2_v3 m ρ c)
theorem W3_v4 : W3 m ρ c (Proc.devRef .tc main_v4) = nodes (m ((c : Thread nD τ).loc main_arg2)) (m ((c : Thread nD τ).loc main_arg3)) := (h1_v4 (W2 m ρ c)).trans (W2_v4 m ρ c)
theorem W3_v5 : W3 m ρ c (Proc.devRef .tc main_v5) = wcol (m ((c : Thread nD τ).loc main_arg1)) := (h1_v5 (W2 m ρ c)).trans (W2_v5 m ρ c)

/-! ### Exit of region 1: the first layer's output and the running sum -/

theorem W4_v17_0 : W4 m ρ c (Proc.devRef .tc main_v17_0) = cur1 (m ((c : Thread nD τ).loc main_arg0)) (m ((c : Thread nD τ).loc main_arg1)) (m ((c : Thread nD τ).loc main_arg2)) (m ((c : Thread nD τ).loc main_arg3)) :=
  (W4_arr m ρ c 2).trans ((KNode1.final2 (V3 m ρ) c).trans (congrArg (leaky (s := S200000x64)) (W3_v16 m ρ c)))
theorem W4_v17_1 : W4 m ρ c (Proc.devRef .tc main_v17_1) = acc1 (m ((c : Thread nD τ).loc main_arg0)) (m ((c : Thread nD τ).loc main_arg1)) (m ((c : Thread nD τ).loc main_arg2)) (m ((c : Thread nD τ).loc main_arg3)) :=
  (W4_arr m ρ c 3).trans ((KNode1.final3 (V3 m ρ) c).trans
    (congr (congrArg (accum (s := S200000x64)) (W3_v16 m ρ c)) (W3_v4 m ρ c)))
theorem W4_v1 : W4 m ρ c (Proc.devRef .tc main_v1) = rowIds (m ((c : Thread nD τ).loc main_arg0)) := (W4_of_ne m ρ c main_v1 (by decide)).trans (W3_v1 m ρ c)
theorem W4_v3 : W4 m ρ c (Proc.devRef .tc main_v3) = colIds (m ((c : Thread nD τ).loc main_arg0)) := (W4_of_ne m ρ c main_v3 (by decide)).trans (W3_v3 m ρ c)
theorem W4_v5 : W4 m ρ c (Proc.devRef .tc main_v5) = wcol (m ((c : Thread nD τ).loc main_arg1)) := (W4_of_ne m ρ c main_v5 (by decide)).trans (W3_v5 m ρ c)

/-! ### Entry of region 2: the second gathered rows -/

theorem W5_v24 : W5 m ρ c (Proc.devRef .tc main_v24) = gathered (cur1 (m ((c : Thread nD τ).loc main_arg0)) (m ((c : Thread nD τ).loc main_arg1)) (m ((c : Thread nD τ).loc main_arg2)) (m ((c : Thread nD τ).loc main_arg3))) (m ((c : Thread nD τ).loc main_arg0)) := by
  refine (h2_v24 (W4 m ρ c)).trans ?_
  rw [W4_v17_0 m ρ c, W4_v3 m ρ c]
  rfl
theorem W5_v1 : W5 m ρ c (Proc.devRef .tc main_v1) = rowIds (m ((c : Thread nD τ).loc main_arg0)) := (h2_v1 (W4 m ρ c)).trans (W4_v1 m ρ c)
theorem W5_v5 : W5 m ρ c (Proc.devRef .tc main_v5) = wcol (m ((c : Thread nD τ).loc main_arg1)) := (h2_v5 (W4 m ρ c)).trans (W4_v5 m ρ c)
theorem W5_v17_1 : W5 m ρ c (Proc.devRef .tc main_v17_1) = acc1 (m ((c : Thread nD τ).loc main_arg0)) (m ((c : Thread nD τ).loc main_arg1)) (m ((c : Thread nD τ).loc main_arg2)) (m ((c : Thread nD τ).loc main_arg3)) := (h2_v17_1 (W4 m ρ c)).trans (W4_v17_1 m ρ c)

/-! ### Exit of region 2: the second messages -/

theorem W6_v25 : W6 m ρ c (Proc.devRef .tc main_v25) = msg (cur1 (m ((c : Thread nD τ).loc main_arg0)) (m ((c : Thread nD τ).loc main_arg1)) (m ((c : Thread nD τ).loc main_arg2)) (m ((c : Thread nD τ).loc main_arg3))) (m ((c : Thread nD τ).loc main_arg0)) (m ((c : Thread nD τ).loc main_arg1)) :=
  (W6_arr m ρ c 2).trans ((KScale2.final (V5 m ρ) c).trans
    (congr (congrArg (scaled (n := 1250000) (k := 64)) (W5_v24 m ρ c)) (W5_v5 m ρ c)))
theorem W6_v1 : W6 m ρ c (Proc.devRef .tc main_v1) = rowIds (m ((c : Thread nD τ).loc main_arg0)) := (W6_of_ne m ρ c main_v1 (by decide)).trans (W5_v1 m ρ c)
theorem W6_v17_1 : W6 m ρ c (Proc.devRef .tc main_v17_1) = acc1 (m ((c : Thread nD τ).loc main_arg0)) (m ((c : Thread nD τ).loc main_arg1)) (m ((c : Thread nD τ).loc main_arg2)) (m ((c : Thread nD τ).loc main_arg3)) := (W6_of_ne m ρ c main_v17_1 (by decide)).trans (W5_v17_1 m ρ c)

/-! ### Entry of region 3: the second aggregate -/

theorem W7_v28 : W7 m ρ c (Proc.devRef .tc main_v28) = agg (cur1 (m ((c : Thread nD τ).loc main_arg0)) (m ((c : Thread nD τ).loc main_arg1)) (m ((c : Thread nD τ).loc main_arg2)) (m ((c : Thread nD τ).loc main_arg3))) (m ((c : Thread nD τ).loc main_arg0)) (m ((c : Thread nD τ).loc main_arg1)) := by
  refine (h3_v28 (W6 m ρ c)).trans ?_
  rw [W6_v1 m ρ c, W6_v25 m ρ c]
  rfl
theorem W7_v17_1 : W7 m ρ c (Proc.devRef .tc main_v17_1) = acc1 (m ((c : Thread nD τ).loc main_arg0)) (m ((c : Thread nD τ).loc main_arg1)) (m ((c : Thread nD τ).loc main_arg2)) (m ((c : Thread nD τ).loc main_arg3)) := (h3_v17_1 (W6 m ρ c)).trans (W6_v17_1 m ρ c)

/-! ### Exit of region 3, and the two halves cut out of the running sum -/

theorem W8_v29_1 : W8 m ρ c (Proc.devRef .tc main_v29_1) = acc2 (m ((c : Thread nD τ).loc main_arg0)) (m ((c : Thread nD τ).loc main_arg1)) (m ((c : Thread nD τ).loc main_arg2)) (m ((c : Thread nD τ).loc main_arg3)) :=
  (W8_arr m ρ c 3).trans ((KNode3.final3 (V7 m ρ) c).trans
    (congr (congrArg (accum (s := S200000x64)) (W7_v28 m ρ c)) (W7_v17_1 m ρ c)))

theorem W9_v30 : W9 m ρ c (Proc.devRef .tc main_v30) = out0 (m ((c : Thread nD τ).loc main_arg0)) (m ((c : Thread nD τ).loc main_arg1)) (m ((c : Thread nD τ).loc main_arg2)) (m ((c : Thread nD τ).loc main_arg3)) := by
  refine (h4_v30 (W8 m ρ c)).trans ?_
  rw [W8_v29_1 m ρ c]
  rfl
theorem W9_v31 : W9 m ρ c (Proc.devRef .tc main_v31) = out1 (m ((c : Thread nD τ).loc main_arg0)) (m ((c : Thread nD τ).loc main_arg1)) (m ((c : Thread nD τ).loc main_arg2)) (m ((c : Thread nD τ).loc main_arg3)) := by
  refine (h4_v31 (W8 m ρ c)).trans ?_
  rw [W8_v29_1 m ρ c]
  rfl

end Cert.KernelIdeal.KChain

end
-- ==== Proof.RefRun.lean ====
import proofs.«100824_j87290915324105_1_alg».proof.Proof.Gen.ReferenceIdeal
import Idealize.ShloMosaic.Lib.StableHlo.Run

noncomputable section

/-! ## The reference's result as staged pure functions of its four arguments

The reference is two rounds of message passing over a graph of 200000 nodes (the two argument
blocks of 100000 rows stacked) and 1250000 weighted edges: each round gathers the current row of
every edge's column node, scales it by the edge's weight, adds the scaled rows into the edge's row
node starting from zero, and applies a leaky rectifier of slope one half; the result is the sum of
the starting rows and of both rounds' rows, cut back into the two blocks. -/

namespace Cert.ReferenceIdeal.RefSpec

open Cert.ReferenceIdeal Cert.ReferenceIdeal.Gen Idealize.ShloMosaic Idealize.SL.Sem

variable {F : FTy → Type} [FloatOps F]

/-- The node rows: the two argument blocks stacked along the row axis. -/
def nodes (a2 a3 : (⟨S100000x64, .f32⟩ : BufTy).Contents (Elt F)) : (⟨S200000x64, .f32⟩ : BufTy).Contents (Elt F) :=
  concatenate S200000x64 0 [⟨S100000x64, a2⟩, ⟨S100000x64, a3⟩] concatenates_S100000x64_S100000x64_S200000x64_d0

/-- Every edge's row node: row 0 of the edge table. -/
def rowIds (a0 : (⟨S2x1250000, .i32⟩ : BufTy).Contents (Elt F)) : (⟨S1250000, .i32⟩ : BufTy).Contents (Elt F) :=
  shapeCast S1250000 (extractStridedSlice S1x1250000 ![0, 0] a0 slices_S2x1250000_S1x1250000_0_0) shapeCasts_S1x1250000_S1250000

/-- Every edge's column node: row 1 of the edge table. -/
def colIds (a0 : (⟨S2x1250000, .i32⟩ : BufTy).Contents (Elt F)) : (⟨S1250000, .i32⟩ : BufTy).Contents (Elt F) :=
  shapeCast S1250000 (extractStridedSlice S1x1250000 ![1, 0] a0 slices_S2x1250000_S1x1250000_1_0) shapeCasts_S1x1250000_S1250000

/-- The row nodes as a column of scatter indices. -/
def rowIdx (a0 : (⟨S2x1250000, .i32⟩ : BufTy).Contents (Elt F)) : (⟨S1250000x1, .i32⟩ : BufTy).Contents (Elt F) :=
  broadcastInDim S1250000x1 ![0] bcast_S1250000_S1250000x1_0 (rowIds a0)

/-- The column nodes as a column of gather indices, a negative one counted from the end (200000 added). -/
def colIdx (a0 : (⟨S2x1250000, .i32⟩ : BufTy).Contents (Elt F)) : (⟨S1250000x1, .i32⟩ : BufTy).Contents (Elt F) :=
  broadcastInDim S1250000x1 ![0] bcast_S1250000_S1250000x1_0
    (select (cmpi .slt (colIds a0) (broadcastInDim S1250000 ![] bcast_S_S1250000 (constantI S_ 32 0#32)))
            (addi (colIds a0) (broadcastInDim S1250000 ![] bcast_S_S1250000 (constantI S_ 32 200000#32))) (colIds a0))

/-- One round's messages: per edge, the current row of its column node times the edge's weight. -/
def msg (cur : (⟨S200000x64, .f32⟩ : BufTy).Contents (Elt F)) (a0 : (⟨S2x1250000, .i32⟩ : BufTy).Contents (Elt F))
    (a1 : (⟨S1250000, .f32⟩ : BufTy).Contents (Elt F)) : (⟨S1250000x64, .f32⟩ : BufTy).Contents (Elt F) :=
  mulf (Host.gather gather_S200000x64_S1250000x1_S1250000x64_1_0_n_n_0_1_164 cur (colIdx a0))
       (broadcastInDim S1250000x64 ![0, 1] bcast_S1250000x1_S1250000x64_0_1 (broadcastInDim S1250000x1 ![0] bcast_S1250000_S1250000x1_0 a1))

/-- One round's aggregate: the messages added into their edges' row nodes, from zero. -/
def agg (cur : (⟨S200000x64, .f32⟩ : BufTy).Contents (Elt F)) (a0 : (⟨S2x1250000, .i32⟩ : BufTy).Contents (Elt F))
    (a1 : (⟨S1250000, .f32⟩ : BufTy).Contents (Elt F)) : (⟨S200000x64, .f32⟩ : BufTy).Contents (Elt F) :=
  Host.scatterAdd scatter_S200000x64_S1250000x1_S1250000x64_1_0_0_1 (broadcastInDim S200000x64 ![] bcast_S_S200000x64 (constant S_ .f32 0x00000000#32)) (rowIdx a0) (msg cur a0 a1)

/-- The leaky rectifier of slope one half: `x` where `x ≥ 0`, `x / 2` elsewhere. -/
def leaky (x : (⟨S200000x64, .f32⟩ : BufTy).Contents (Elt F)) : (⟨S200000x64, .f32⟩ : BufTy).Contents (Elt F) :=
  select (cmpf .oge x (broadcastInDim S200000x64 ![] bcast_S_S200000x64 (constant S_ .f32 0x00000000#32))) x
         (mulf (broadcastInDim S200000x64 ![] bcast_S_S200000x64 (id (constant S_ .f32 0x3F000000#32))) x)

/-- The rows after the first round. -/
def cur1 (a0 : (⟨S2x1250000, .i32⟩ : BufTy).Contents (Elt F)) (a1 : (⟨S1250000, .f32⟩ : BufTy).Contents (Elt F))
    (a2 a3 : (⟨S100000x64, .f32⟩ : BufTy).Contents (Elt F)) : (⟨S200000x64, .f32⟩ : BufTy).Contents (Elt F) :=
  leaky (agg (nodes a2 a3) a0 a1)

/-- The rows after the second round. -/
def cur2 (a0 : (⟨S2x1250000, .i32⟩ : BufTy).Contents (Elt F)) (a1 : (⟨S1250000, .f32⟩ : BufTy).Contents (Elt F))
    (a2 a3 : (⟨S100000x64, .f32⟩ : BufTy).Contents (Elt F)) : (⟨S200000x64, .f32⟩ : BufTy).Contents (Elt F) :=
  leaky (agg (cur1 a0 a1 a2 a3) a0 a1)

/-- The starting rows plus both rounds' rows. -/
def acc2 (a0 : (⟨S2x1250000, .i32⟩ : BufTy).Contents (Elt F)) (a1 : (⟨S1250000, .f32⟩ : BufTy).Contents (Elt F))
    (a2 a3 : (⟨S100000x64, .f32⟩ : BufTy).Contents (Elt F)) : (⟨S200000x64, .f32⟩ : BufTy).Contents (Elt F) :=
  addf (addf (nodes a2 a3) (cur1 a0 a1 a2 a3)) (cur2 a0 a1 a2 a3)

/-- The first result: rows 0 … 99999 of the sum. -/
def out0 (a0 : (⟨S2x1250000, .i32⟩ : BufTy).Contents (Elt F)) (a1 : (⟨S1250000, .f32⟩ : BufTy).Contents (Elt F))
    (a2 a3 : (⟨S100000x64, .f32⟩ : BufTy).Contents (Elt F)) : (⟨S100000x64, .f32⟩ : BufTy).Contents (Elt F) :=
  extractStridedSlice S100000x64 ![0, 0] (acc2 a0 a1 a2 a3) slices_S200000x64_S100000x64_0_0

/-- The second result: rows 100000 … 199999 of the sum. -/
def out1 (a0 : (⟨S2x1250000, .i32⟩ : BufTy).Contents (Elt F)) (a1 : (⟨S1250000, .f32⟩ : BufTy).Contents (Elt F))
    (a2 a3 : (⟨S100000x64, .f32⟩ : BufTy).Contents (Elt F)) : (⟨S100000x64, .f32⟩ : BufTy).Contents (Elt F) :=
  extractStridedSlice S100000x64 ![100000, 0] (acc2 a0 a1 a2 a3) slices_S200000x64_S100000x64_100000_0

end Cert.ReferenceIdeal.RefSpec

/-! ## The reference's run

@main as the list of its 57 host operations — the two calls of the leaky rectifier unfolded where
they stand, each seven operations over the call's own buffers — and what the two result buffers
hold after the list has run: the staged functions above at the arguments' launch contents. -/

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the two slices of the edge table and their reshapes, the
    stacking of the node blocks; then per round the seventeen operations that wrap the column indices, gather,
    scale and scatter-add, and the rectifier's seven (zero, its broadcast, the comparison, the slope, its
    broadcast, the product, the select); the two sums; the two result slices. -/
abbrev ops : List (HloOp τ sig (Elt F)) :=
  [ unary main_arg0 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg0 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    binary main_arg2 main_arg3 main_v4 ((fun a b => concatenate S200000x64 0 [⟨S100000x64, a⟩, ⟨S100000x64, b⟩] concatenates_S100000x64_S100000x64_S200000x64_d0) : (⟨S100000x64, .f32⟩ : BufTy).Contents (Elt F) → (⟨S100000x64, .f32⟩ : BufTy).Contents (Elt F) → (⟨S200000x64, .f32⟩ : BufTy).Contents (Elt F)),
    nullary main_c (constantI S_ 32 0#32),
    unary main_c main_v5 (broadcastInDim S1250000 ![] bcast_S_S1250000 : (⟨S_, .i32⟩ : BufTy).Contents (Elt F) → (⟨S1250000, .i32⟩ : BufTy).Contents (Elt F)),
    binary main_v3 main_v5 main_v6 (cmpi .slt : (⟨S1250000, .i32⟩ : BufTy).Contents (Elt F) → (⟨S1250000, .i32⟩ : BufTy).Contents (Elt F) → (⟨S1250000, .i1⟩ : BufTy).Contents (Elt F)),
    nullary main_c_0 (constantI S_ 32 200000#32),
    unary main_c_0 main_v7 (broadcastInDim S1250000 ![] bcast_S_S1250000 : (⟨S_, .i32⟩ : BufTy).Contents (Elt F) → (⟨S1250000, .i32⟩ : BufTy).Contents (Elt F)),
    binary main_v3 main_v7 main_v8 (addi : (⟨S1250000, .i32⟩ : BufTy).Contents (Elt F) → (⟨S1250000, .i32⟩ : BufTy).Contents (Elt F) → (⟨S1250000, .i32⟩ : BufTy).Contents (Elt F)),
    ternary main_v6 main_v8 main_v3 main_v9 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v9 main_v10 (broadcastInDim S1250000x1 ![0] bcast_S1250000_S1250000x1_0 : (⟨S1250000, .i32⟩ : BufTy).Contents (Elt F) → (⟨S1250000x1, .i32⟩ : BufTy).Contents (Elt F)),
    binary main_v4 main_v10 main_v11 ((fun x i => Host.gather gather_S200000x64_S1250000x1_S1250000x64_1_0_n_n_0_1_164 x i) : (⟨S200000x64, .f32⟩ : BufTy).Contents (Elt F) → (⟨S1250000x1, .i32⟩ : BufTy).Contents (Elt F) → (⟨S1250000x64, .f32⟩ : BufTy).Contents (Elt F)),
    unary main_arg1 main_v12 (broadcastInDim S1250000x1 ![0] bcast_S1250000_S1250000x1_0 : (⟨S1250000, .f32⟩ : BufTy).Contents (Elt F) → (⟨S1250000x1, .f32⟩ : BufTy).Contents (Elt F)),
    unary main_v12 main_v13 (broadcastInDim S1250000x64 ![0, 1] bcast_S1250000x1_S1250000x64_0_1 : (⟨S1250000x1, .f32⟩ : BufTy).Contents (Elt F) → (⟨S1250000x64, .f32⟩ : BufTy).Contents (Elt F)),
    binary main_v11 main_v13 main_v14 (mulf : (⟨S1250000x64, .f32⟩ : BufTy).Contents (Elt F) → (⟨S1250000x64, .f32⟩ : BufTy).Contents (Elt F) → (⟨S1250000x64, .f32⟩ : BufTy).Contents (Elt F)),
    nullary main_cst (constant S_ .f32 0x00000000#32),
    unary main_cst main_v15 (broadcastInDim S200000x64 ![] bcast_S_S200000x64 : (⟨S_, .f32⟩ : BufTy).Contents (Elt F) → (⟨S200000x64, .f32⟩ : BufTy).Contents (Elt F)),
    unary main_v1 main_v16 (broadcastInDim S1250000x1 ![0] bcast_S1250000_S1250000x1_0 : (⟨S1250000, .i32⟩ : BufTy).Contents (Elt F) → (⟨S1250000x1, .i32⟩ : BufTy).Contents (Elt F)),
    ternary main_v15 main_v16 main_v14 main_v17 ((fun x i u => Host.scatterAdd scatter_S200000x64_S1250000x1_S1250000x64_1_0_0_1 x i u) : (⟨S200000x64, .f32⟩ : BufTy).Contents (Elt F) → (⟨S1250000x1, .i32⟩ : BufTy).Contents (Elt F) → (⟨S1250000x64, .f32⟩ : BufTy).Contents (Elt F) → (⟨S200000x64, .f32⟩ : BufTy).Contents (Elt F)),
    nullary main_cst_1 (constant S_ .f32 0x3F000000#32),
    TRef.nullary main_call0.cst (constant S_ .f32 0x00000000#32),
    TRef.unary main_call0.cst main_call0.v0 (broadcastInDim S200000x64 ![] bcast_S_S200000x64),
    TRef.binary (.of main_v17) main_call0.v0 main_call0.v1 (cmpf .oge),
    TRef.unary (.of main_cst_1) main_call0.v2 id,
    TRef.unary main_call0.v2 main_call0.v3 (broadcastInDim S200000x64 ![] bcast_S_S200000x64),
    TRef.binary main_call0.v3 (.of main_v17) main_call0.v4 mulf,
    TRef.ternary main_call0.v1 (.of main_v17) main_call0.v4 main_call0.call0.v0 select,
    binary main_v4 main_v18 main_v19 (addf : (⟨S200000x64, .f32⟩ : BufTy).Contents (Elt F) → (⟨S200000x64, .f32⟩ : BufTy).Contents (Elt F) → (⟨S200000x64, .f32⟩ : BufTy).Contents (Elt F)),
    nullary main_c_2 (constantI S_ 32 0#32),
    unary main_c_2 main_v20 (broadcastInDim S1250000 ![] bcast_S_S1250000 : (⟨S_, .i32⟩ : BufTy).Contents (Elt F) → (⟨S1250000, .i32⟩ : BufTy).Contents (Elt F)),
    binary main_v3 main_v20 main_v21 (cmpi .slt : (⟨S1250000, .i32⟩ : BufTy).Contents (Elt F) → (⟨S1250000, .i32⟩ : BufTy).Contents (Elt F) → (⟨S1250000, .i1⟩ : BufTy).Contents (Elt F)),
    nullary main_c_3 (constantI S_ 32 200000#32),
    unary main_c_3 main_v22 (broadcastInDim S1250000 ![] bcast_S_S1250000 : (⟨S_, .i32⟩ : BufTy).Contents (Elt F) → (⟨S1250000, .i32⟩ : BufTy).Contents (Elt F)),
    binary main_v3 main_v22 main_v23 (addi : (⟨S1250000, .i32⟩ : BufTy).Contents (Elt F) → (⟨S1250000, .i32⟩ : BufTy).Contents (Elt F) → (⟨S1250000, .i32⟩ : BufTy).Contents (Elt F)),
    ternary main_v21 main_v23 main_v3 main_v24 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v24 main_v25 (broadcastInDim S1250000x1 ![0] bcast_S1250000_S1250000x1_0 : (⟨S1250000, .i32⟩ : BufTy).Contents (Elt F) → (⟨S1250000x1, .i32⟩ : BufTy).Contents (Elt F)),
    binary main_v18 main_v25 main_v26 ((fun x i => Host.gather gather_S200000x64_S1250000x1_S1250000x64_1_0_n_n_0_1_164 x i) : (⟨S200000x64, .f32⟩ : BufTy).Contents (Elt F) → (⟨S1250000x1, .i32⟩ : BufTy).Contents (Elt F) → (⟨S1250000x64, .f32⟩ : BufTy).Contents (Elt F)),
    unary main_arg1 main_v27 (broadcastInDim S1250000x1 ![0] bcast_S1250000_S1250000x1_0 : (⟨S1250000, .f32⟩ : BufTy).Contents (Elt F) → (⟨S1250000x1, .f32⟩ : BufTy).Contents (Elt F)),
    unary main_v27 main_v28 (broadcastInDim S1250000x64 ![0, 1] bcast_S1250000x1_S1250000x64_0_1 : (⟨S1250000x1, .f32⟩ : BufTy).Contents (Elt F) → (⟨S1250000x64, .f32⟩ : BufTy).Contents (Elt F)),
    binary main_v26 main_v28 main_v29 (mulf : (⟨S1250000x64, .f32⟩ : BufTy).Contents (Elt F) → (⟨S1250000x64, .f32⟩ : BufTy).Contents (Elt F) → (⟨S1250000x64, .f32⟩ : BufTy).Contents (Elt F)),
    nullary main_cst_4 (constant S_ .f32 0x00000000#32),
    unary main_cst_4 main_v30 (broadcastInDim S200000x64 ![] bcast_S_S200000x64 : (⟨S_, .f32⟩ : BufTy).Contents (Elt F) → (⟨S200000x64, .f32⟩ : BufTy).Contents (Elt F)),
    unary main_v1 main_v31 (broadcastInDim S1250000x1 ![0] bcast_S1250000_S1250000x1_0 : (⟨S1250000, .i32⟩ : BufTy).Contents (Elt F) → (⟨S1250000x1, .i32⟩ : BufTy).Contents (Elt F)),
    ternary main_v30 main_v31 main_v29 main_v32 ((fun x i u => Host.scatterAdd scatter_S200000x64_S1250000x1_S1250000x64_1_0_0_1 x i u) : (⟨S200000x64, .f32⟩ : BufTy).Contents (Elt F) → (⟨S1250000x1, .i32⟩ : BufTy).Contents (Elt F) → (⟨S1250000x64, .f32⟩ : BufTy).Contents (Elt F) → (⟨S200000x64, .f32⟩ : BufTy).Contents (Elt F)),
    nullary main_cst_5 (constant S_ .f32 0x3F000000#32),
    TRef.nullary main_call1.cst (constant S_ .f32 0x00000000#32),
    TRef.unary main_call1.cst main_call1.v0 (broadcastInDim S200000x64 ![] bcast_S_S200000x64),
    TRef.binary (.of main_v32) main_call1.v0 main_call1.v1 (cmpf .oge),
    TRef.unary (.of main_cst_5) main_call1.v2 id,
    TRef.unary main_call1.v2 main_call1.v3 (broadcastInDim S200000x64 ![] bcast_S_S200000x64),
    TRef.binary main_call1.v3 (.of main_v32) main_call1.v4 mulf,
    TRef.ternary main_call1.v1 (.of main_v32) main_call1.v4 main_call1.call0.v0 select,
    binary main_v19 main_v33 main_v34 (addf : (⟨S200000x64, .f32⟩ : BufTy).Contents (Elt F) → (⟨S200000x64, .f32⟩ : BufTy).Contents (Elt F) → (⟨S200000x64, .f32⟩ : BufTy).Contents (Elt F)),
    unary main_v34 main_v35 ((extractStridedSlice S100000x64 ![0, 0] · slices_S200000x64_S100000x64_0_0) : (⟨S200000x64, .f32⟩ : BufTy).Contents (Elt F) → (⟨S100000x64, .f32⟩ : BufTy).Contents (Elt F)),
    unary main_v34 main_v36 ((extractStridedSlice S100000x64 ![100000, 0] · slices_S200000x64_S100000x64_100000_0) : (⟨S200000x64, .f32⟩ : BufTy).Contents (Elt F) → (⟨S100000x64, .f32⟩ : BufTy).Contents (Elt F)) ]

set_option maxRecDepth 1024 in
/-- @main is that straight line: the two functions' definitions unfolded at their calls and sequencing
    reassociated, both sides are one chain of host steps. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., nullary_bufs_sub .., nullary_bufs_sub .., unary_bufs_sub ..,
    binary_bufs_sub .., unary_bufs_sub .., unary_bufs_sub .., binary_bufs_sub .., ternary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub ..⟩

attribute [local irreducible] Host.gather Host.scatterAdd in
set_option maxRecDepth 8192 in
set_option maxHeartbeats 400000 in
/-- The first result buffer after the operations: the fold read back operation by operation (each result buffer
    at its function of the operands' contents, every other buffer as it was), the composed term is `out0` of the
    arguments' contents by unfolding the staged definitions. The gather and the scatter-add stay folded: the
    equation never looks inside them. -/
theorem out0_eq (V : Valuation τ sig (Elt F)) :
    after ops V (main_v35 : DevRef τ sig)
      = RefSpec.out0 (V (main_arg0 : DevRef τ sig)) (V (main_arg1 : DevRef τ sig)) (V (main_arg2 : DevRef τ sig))
          (V (main_arg3 : DevRef τ sig)) := by
  after_results_simp <;> rfl

attribute [local irreducible] Host.gather Host.scatterAdd in
set_option maxRecDepth 8192 in
set_option maxHeartbeats 400000 in
/-- The second result buffer after the operations, likewise. -/
theorem out1_eq (V : Valuation τ sig (Elt F)) :
    after ops V (main_v36 : DevRef τ sig)
      = RefSpec.out1 (V (main_arg0 : DevRef τ sig)) (V (main_arg1 : DevRef τ sig)) (V (main_arg2 : DevRef τ sig))
          (V (main_arg3 : DevRef τ sig)) := by
  after_results_simp <;> rfl

/-- No operation writes argument 0's buffer. -/
theorem arg0_eq (V : Valuation τ sig (Elt F)) :
    after ops V (main_arg0 : DevRef τ sig) = V (main_arg0 : DevRef τ sig) := by
  after_results_simp <;> rfl

/-- No operation writes argument 1's buffer. -/
theorem arg1_eq (V : Valuation τ sig (Elt F)) :
    after ops V (main_arg1 : DevRef τ sig) = V (main_arg1 : DevRef τ sig) := by
  after_results_simp <;> rfl

/-- No operation writes argument 2's buffer. -/
theorem arg2_eq (V : Valuation τ sig (Elt F)) :
    after ops V (main_arg2 : DevRef τ sig) = V (main_arg2 : DevRef τ sig) := by
  after_results_simp <;> rfl

/-- No operation writes argument 3's buffer. -/
theorem arg3_eq (V : Valuation τ sig (Elt F)) :
    after ops V (main_arg3 : DevRef τ sig) = V (main_arg3 : DevRef τ sig) := by
  after_results_simp <;> rfl

/-- On the device, for any float values, from any memory with zero counters: every weakly fair execution of
    @main terminates with the two result buffers at `out0` and `out1` of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = RefSpec.out0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v36) = RefSpec.out1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v35).trans (out0_eq _), (h c main_v36).trans (out1_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.Bridge.lean ====
/-
  The reference's result and the kernel's are one function of the four arguments.

  Stage by stage the two sides apply the same operations to the same values: the node table, the two index vectors,
  the gather and the scatter-add are literally the same; the rectifier is the same entrywise function; the running
  sums add the same three tables in the same order. The one stage stated differently is the messages: the reference
  multiplies the gathered [E, 64] table by the weight vector viewed as a column and repeated along the 64 lanes, the
  kernel multiplies row e by entry (e, 0) of the weight column — at every entry both read the weight of edge e.
-/
import proofs.«100824_j87290915324105_1_alg».proof.Proof.RefRun
import proofs.«100824_j87290915324105_1_alg».proof.Proof.KOut
import proofs.«100824_j87290915324105_1_alg».proof.Proof.LibKeepdims
import Idealize.ShloMosaic.Lib.Pipeline.Value
import Idealize.ShloMosaic.Lib.ValueIdx

noncomputable section

namespace Cert.Bridge

open Idealize.ShloMosaic Idealize.ShloMosaic.ValueIdx Idealize.SL.Sem Cert.KVal

variable {F : FTy → Type} [FloatOps F]

/-- The node table is the same concatenation on both sides. -/
theorem nodes_eq (a2 a3 : (⟨Cert.ReferenceIdeal.S100000x64, .f32⟩ : BufTy).Contents (Elt F)) :
    Cert.ReferenceIdeal.RefSpec.nodes a2 a3 = Cert.KernelIdeal.KOut.nodes a2 a3 := rfl

/-- So are the two index vectors cut out of the index argument. -/
theorem rowIds_eq (a0 : (⟨Cert.ReferenceIdeal.S2x1250000, .i32⟩ : BufTy).Contents (Elt F)) :
    Cert.ReferenceIdeal.RefSpec.rowIds a0 = Cert.KernelIdeal.KOut.rowIds a0 := rfl
theorem colIds_eq (a0 : (⟨Cert.ReferenceIdeal.S2x1250000, .i32⟩ : BufTy).Contents (Elt F)) :
    Cert.ReferenceIdeal.RefSpec.colIds a0 = Cert.KernelIdeal.KOut.colIds a0 := rfl

/-- The gathered rows are the same gather at the same indices. -/
theorem gathered_eq (cur : (⟨Cert.ReferenceIdeal.S200000x64, .f32⟩ : BufTy).Contents (Elt F)) (a0 : (⟨Cert.ReferenceIdeal.S2x1250000, .i32⟩ : BufTy).Contents (Elt F)) :
    Host.gather Cert.ReferenceIdeal.gather_S200000x64_S1250000x1_S1250000x64_1_0_n_n_0_1_164 cur (Cert.ReferenceIdeal.RefSpec.colIdx a0)
      = Cert.KernelIdeal.KOut.gathered cur a0 := rfl

/-- The weight vector viewed as a column and repeated along the 64 lanes reads, at `(p, q)`, the weight of edge `p`. -/
theorem wbcast_apply (a1 : (⟨Cert.ReferenceIdeal.S1250000, .f32⟩ : BufTy).Contents (Elt F)) (p : Fin 1250000) (q : Fin 64) :
    broadcastInDim Cert.ReferenceIdeal.S1250000x64 ![0, 1] Cert.ReferenceIdeal.Facts₀.bcast_S1250000x1_S1250000x64_0_1
        (broadcastInDim Cert.ReferenceIdeal.S1250000x1 ![0] Cert.ReferenceIdeal.Facts₀.bcast_S1250000_S1250000x1_0 a1) (ix2 p q)
      = a1 (ix1 p) := by
  refine (broadcastInDim_apply _ _ _ (ix2 p q) (ix2 p (0 : Fin 1)) fun a => ?_).trans
    (broadcastInDim_apply _ _ a1 (ix2 p (0 : Fin 1)) (ix1 p) fun a => ?_)
  · match a with
    | ⟨0, _⟩ => rfl
    | ⟨1, _⟩ => rfl
  · match a with
    | ⟨0, _⟩ => rfl

/-- The messages agree: the reference multiplies the gathered table by the weights repeated along the lanes, the
    kernel multiplies each row by the head of its row in the weight column; both read the weight of the row's edge. -/
theorem msg_eq (cur : (⟨Cert.ReferenceIdeal.S200000x64, .f32⟩ : BufTy).Contents (Elt F)) (a0 : (⟨Cert.ReferenceIdeal.S2x1250000, .i32⟩ : BufTy).Contents (Elt F))
    (a1 : (⟨Cert.ReferenceIdeal.S1250000, .f32⟩ : BufTy).Contents (Elt F)) :
    Cert.ReferenceIdeal.RefSpec.msg cur a0 a1 = Cert.KernelIdeal.KOut.msg cur a0 a1 := by
  funext i
  obtain ⟨p, q, rfl⟩ : ∃ (p : Fin 1250000) (q : Fin 64), i = ix2 p q := ⟨i 0, i 1, eq_ix2 i⟩
  show FloatOps.mulf (Host.gather Cert.ReferenceIdeal.gather_S200000x64_S1250000x1_S1250000x64_1_0_n_n_0_1_164 cur (Cert.ReferenceIdeal.RefSpec.colIdx a0) (ix2 p q))
      (broadcastInDim Cert.ReferenceIdeal.S1250000x64 ![0, 1] Cert.ReferenceIdeal.Facts₀.bcast_S1250000x1_S1250000x64_0_1
        (broadcastInDim Cert.ReferenceIdeal.S1250000x1 ![0] Cert.ReferenceIdeal.Facts₀.bcast_S1250000_S1250000x1_0 a1) (ix2 p q))
    = FloatOps.mulf (Cert.KernelIdeal.KOut.gathered cur a0 (ix2 p q))
        (shapeCast (⟨2, ![1250000, 1]⟩ : Shape) a1 Cert.KernelIdeal.Facts₀.shapeCasts_S1250000_S1250000x1 (ix2 p (0 : Fin 1)))
  rw [wbcast_apply, gathered_eq, Cert.LibKeepdims.shapeCast_a_a1_apply]

/-- The aggregates agree: the same scatter-add of equal messages at the same targets. -/
theorem agg_eq (cur : (⟨Cert.ReferenceIdeal.S200000x64, .f32⟩ : BufTy).Contents (Elt F)) (a0 : (⟨Cert.ReferenceIdeal.S2x1250000, .i32⟩ : BufTy).Contents (Elt F))
    (a1 : (⟨Cert.ReferenceIdeal.S1250000, .f32⟩ : BufTy).Contents (Elt F)) :
    Cert.ReferenceIdeal.RefSpec.agg cur a0 a1 = Cert.KernelIdeal.KOut.agg cur a0 a1 := by
  unfold Cert.ReferenceIdeal.RefSpec.agg
  rw [msg_eq]
  rfl

/-- The rectifier is the same entrywise function: the comparison with zero selects `x` or `x / 2`. -/
theorem leaky_eq (x : (⟨Cert.ReferenceIdeal.S200000x64, .f32⟩ : BufTy).Contents (Elt F)) : Cert.ReferenceIdeal.RefSpec.leaky x = Cert.KVal.leaky x := rfl

theorem cur1_eq (a0 : (⟨Cert.ReferenceIdeal.S2x1250000, .i32⟩ : BufTy).Contents (Elt F)) (a1 : (⟨Cert.ReferenceIdeal.S1250000, .f32⟩ : BufTy).Contents (Elt F))
    (a2 a3 : (⟨Cert.ReferenceIdeal.S100000x64, .f32⟩ : BufTy).Contents (Elt F)) :
    Cert.ReferenceIdeal.RefSpec.cur1 a0 a1 a2 a3 = Cert.KernelIdeal.KOut.cur1 a0 a1 a2 a3 := by
  unfold Cert.ReferenceIdeal.RefSpec.cur1
  rw [nodes_eq, agg_eq, leaky_eq]
  rfl

/-- The running sums agree: node table plus first output plus second output, in that order, entry by entry. -/
theorem acc2_eq (a0 : (⟨Cert.ReferenceIdeal.S2x1250000, .i32⟩ : BufTy).Contents (Elt F)) (a1 : (⟨Cert.ReferenceIdeal.S1250000, .f32⟩ : BufTy).Contents (Elt F))
    (a2 a3 : (⟨Cert.ReferenceIdeal.S100000x64, .f32⟩ : BufTy).Contents (Elt F)) :
    Cert.ReferenceIdeal.RefSpec.acc2 a0 a1 a2 a3 = Cert.KernelIdeal.KOut.acc2 a0 a1 a2 a3 := by
  unfold Cert.ReferenceIdeal.RefSpec.acc2 Cert.ReferenceIdeal.RefSpec.cur2
  rw [cur1_eq, nodes_eq, agg_eq, leaky_eq]
  rfl

theorem out0_eq (a0 : (⟨Cert.ReferenceIdeal.S2x1250000, .i32⟩ : BufTy).Contents (Elt F)) (a1 : (⟨Cert.ReferenceIdeal.S1250000, .f32⟩ : BufTy).Contents (Elt F))
    (a2 a3 : (⟨Cert.ReferenceIdeal.S100000x64, .f32⟩ : BufTy).Contents (Elt F)) :
    Cert.ReferenceIdeal.RefSpec.out0 a0 a1 a2 a3 = Cert.KernelIdeal.KOut.out0 a0 a1 a2 a3 := by
  unfold Cert.ReferenceIdeal.RefSpec.out0
  rw [acc2_eq]
  rfl
theorem out1_eq (a0 : (⟨Cert.ReferenceIdeal.S2x1250000, .i32⟩ : BufTy).Contents (Elt F)) (a1 : (⟨Cert.ReferenceIdeal.S1250000, .f32⟩ : BufTy).Contents (Elt F))
    (a2 a3 : (⟨Cert.ReferenceIdeal.S100000x64, .f32⟩ : BufTy).Contents (Elt F)) :
    Cert.ReferenceIdeal.RefSpec.out1 a0 a1 a2 a3 = Cert.KernelIdeal.KOut.out1 a0 a1 a2 a3 := by
  unfold Cert.ReferenceIdeal.RefSpec.out1
  rw [acc2_eq]
  rfl

end Cert.Bridge

end
-- ==== Proof.lean ====
/-
  The certificate: a two-layer weighted graph aggregation, computed by four pipelined regions among host gathers and
  scatter-adds, equals its plain array reference over the extended reals.

  Both programs build the node table (users then items), and twice: gather each edge's source row, scale it by the
  edge's weight, sum the scaled rows at the edges' targets, apply the leaky rectifier with slope 1/2 and add the result
  to a running sum; the running sum's two halves are the results. The kernel does the scaling and the rectify-and-add
  in grid regions of 5000 rows each; the gather and the scatter-add are host operations on both sides. The two
  programs apply the same exact operations to the same values in the same order, so no algebraic law and no
  finiteness of the inputs is needed: the two results are one function of the arguments (`Cert.Bridge`).

  The three frames: the word-level kernel's and the idealized kernel's are the generated several-region frames; the
  reference's is its run with the results dropped. The idealization rewrote nothing, so `preserves` is `True`.
-/
import proofs.«100824_j87290915324105_1_alg».proof.Defs
import proofs.«100824_j87290915324105_1_alg».proof.Proof.Gen.Kernel
import proofs.«100824_j87290915324105_1_alg».proof.Proof.Gen.Kernel.Frame
import proofs.«100824_j87290915324105_1_alg».proof.Proof.Gen.KernelIdeal
import proofs.«100824_j87290915324105_1_alg».proof.Proof.Gen.KernelIdeal.Frame
import proofs.«100824_j87290915324105_1_alg».proof.Proof.Gen.ReferenceIdeal
import proofs.«100824_j87290915324105_1_alg».proof.Proof.Gen.Pre_finite_inputs
import proofs.«100824_j87290915324105_1_alg».proof.Proof.KRun
import proofs.«100824_j87290915324105_1_alg».proof.Proof.KChain
import proofs.«100824_j87290915324105_1_alg».proof.Proof.RefRun
import proofs.«100824_j87290915324105_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run (F := Ideal) m ρ)

/-- The idealized kernel's run with both results at the staged function of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v30) = Cert.KernelIdeal.KOut.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_v31) = Cert.KernelIdeal.KOut.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun _ h c => ⟨(h c).1.trans (Cert.KernelIdeal.KChain.W9_v30 m ρ c), (h c).2.1.trans (Cert.KernelIdeal.KChain.W9_v31 m ρ c), (h c).2.2⟩)
    (Cert.KernelIdeal.KRun.run_results (F := Ideal) m ρ)

/-- From memories agreeing on the arguments both programs end with the same two results: the kernel's staged function
    of the arguments, which the reference's staged function equals. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [(hagree c).1, (hagree c).2.1, (hagree c).2.2.1, (hagree c).2.2.2]
    exact Cert.Bridge.out0_eq _ _ _ _
  · rw [(hagree c).1, (hagree c).2.1, (hagree c).2.2.1, (hagree c).2.2.2]
    exact Cert.Bridge.out1_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
